-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 64
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .bf16⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x256, .bf16⟩
  | .hbm, ⟨38, _⟩ => ⟨S850000x256, .f32⟩
  | .hbm, ⟨39, _⟩ => ⟨S_, .f32⟩
  | .hbm, ⟨40, _⟩ => ⟨S50000x256, .f32⟩
  | .hbm, ⟨41, _⟩ => ⟨S850000x1, .i32⟩
  | .hbm, ⟨42, _⟩ => ⟨S50000x256, .f32⟩
  | .hbm, ⟨43, _⟩ => ⟨S1x256, .f32⟩
  | .hbm, ⟨44, _⟩ => ⟨S50000x128, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .bf16⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x1, .f32⟩
  | .local _ .vmem, ⟨4, _⟩ => ⟨S5000x1, .f32⟩
  | .local _ .vmem, ⟨5, _⟩ => ⟨S5000x256, .bf16⟩
  | .local _ .vmem, ⟨6, _⟩ => ⟨S5000x256, .bf16⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x128, .f32⟩
  | .local _ .vmem, ⟨13, _⟩ => ⟨S5000x128, .bf16⟩
  | .local _ .vmem, ⟨14, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .bf16 = 32 ∨ (Rect.block (s := S50000x256) S5000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named: every weakly fair execution of @main ends with the result buffer at
  the last boundary's contents — the fold of the host stretches and the two regions' write-backs from the launch memory —
  and the argument arrays as launched. The host side and the launch are the frame's; only the final state is read at one
  more buffer.
-/
import proofs.«151310_j89404039233749_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: terminates, nothing faulting; the result buffer ends at the last boundary's contents `W7`, each argument
    array as launched. -/
theorem run_result : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KernelHost.lean ====
/-
  The idealized kernel's host side, read back from the launch memory: the degree-normalisation vector, the edge columns and the
  arguments as each region and each later host stretch finds them.
-/
import proofs.«151310_j89404039233749_2_alg».proof.Proof.Gen.KernelIdeal.Frame
import proofs.«151310_j89404039233749_2_alg».proof.Proof.RefRead
import Idealize.ShloMosaic.Lib.StableHlo.Run
import proofs.«151310_j89404039233749_2_alg».proof.Proof.LibKeepdims

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat)

/-- A buffer no operation of a stretch writes holds after the stretch what it held before. -/
macro "keep_ops " ops:ident : tactic => `(tactic| exact StableHlo.after_of_forall_not_mem _ _ (List.forall_iff_forall_mem.mp (by
          simp only [$ops:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

variable (m : (ℓ : Loc nD τ sig) → Buf (Elt Ideal) ℓ) (ρ : Dev nD → PrngReg) (c : Dev nD)

section AnyContents
variable (V : Valuation τ sig (Elt Ideal))

/-- The three operations of the inlined `where`: the select of the two vectors and the broadcast scalar. -/
theorem where_v14 : StableHlo.after hostOps0_1 V (Proc.devRef .tc main_v14)
    = select (V (Proc.devRef .tc main_v12)) (V (Proc.devRef .tc main_v13))
        (broadcastInDim S50000 ![] bcast_S_S50000 (id (V (Proc.devRef .tc main_cst_2)))) := by
  after_results
  rfl

/-- The normalisation vector reshaped to a column. -/
theorem column_v15 : StableHlo.after hostOps0_2 V (Proc.devRef .tc main_v15)
    = fun i => shapeCast S50000x1 (V (Proc.devRef .tc main_v14)) shapeCasts_S50000_S50000x1 i := by
  after_results
  rfl

end AnyContents

/-! ## After the first stretch: the reference's own stages of the edge array -/

theorem W1_v12 : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v8 Cert.ReferenceIdeal.ReadP.val_main_cst_0 Cert.ReferenceIdeal.ReadP.val_main_v9 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

theorem W1_v13 : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  after_results
  unfold Cert.ReferenceIdeal.ReadP.val_main_v13 Cert.ReferenceIdeal.ReadP.val_main_v10 Cert.ReferenceIdeal.ReadP.val_main_v8 Cert.ReferenceIdeal.ReadP.val_main_cst_0 Cert.ReferenceIdeal.ReadP.val_main_v9 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

theorem W1_cst_2 : W1 m ρ c (Proc.devRef .tc main_cst_2)
    = Cert.ReferenceIdeal.ReadP.val_main_cst_2 (F := Ideal) := by
  show StableHlo.after hostOps0 (W0 m ρ c) (Proc.devRef .tc main_cst_2) = _
  after_results
  unfold Cert.ReferenceIdeal.ReadP.val_main_cst_2
  rfl

theorem W1_v3 : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  after_results
  unfold Cert.ReferenceIdeal.ReadP.val_main_v3 Cert.ReferenceIdeal.ReadP.val_main_v2 Cert.ReferenceIdeal.ReadP.val_main_v1 Cert.ReferenceIdeal.ReadP.val_main_v0
  rfl

theorem W1_v6 : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  after_results
  unfold Cert.ReferenceIdeal.ReadP.val_main_v6 Cert.ReferenceIdeal.ReadP.val_main_v5 Cert.ReferenceIdeal.ReadP.val_main_v4 Cert.ReferenceIdeal.ReadP.val_main_v0
  rfl

/-- The normalisation vector where(deg > 0, rsqrt(deg), 0) is the reference's own stage of the edge array. -/
theorem W2_v14 : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  rw [where_v14, W1_v12, W1_v13, W1_cst_2]
  rfl

/-! ## At the first region's entry -/

theorem W3_arg0 : W3 m ρ c (Proc.devRef .tc main_arg0) = (m ((c : Thread nD τ).loc main_arg0)) := by
  have h1 : W3 m ρ c (Proc.devRef .tc main_arg0) = W2 m ρ c (Proc.devRef .tc main_arg0) := by keep_ops hostOps0_2
  have h2 : W2 m ρ c (Proc.devRef .tc main_arg0) = W1 m ρ c (Proc.devRef .tc main_arg0) := by keep_ops hostOps0_1
  have h3 : W1 m ρ c (Proc.devRef .tc main_arg0) = W0 m ρ c (Proc.devRef .tc main_arg0) := by keep_ops hostOps0
  exact h1.trans (h2.trans (h3.trans rfl))

theorem W3_arg2 : W3 m ρ c (Proc.devRef .tc main_arg2) = (m ((c : Thread nD τ).loc main_arg2)) := by
  have h1 : W3 m ρ c (Proc.devRef .tc main_arg2) = W2 m ρ c (Proc.devRef .tc main_arg2) := by keep_ops hostOps0_2
  have h2 : W2 m ρ c (Proc.devRef .tc main_arg2) = W1 m ρ c (Proc.devRef .tc main_arg2) := by keep_ops hostOps0_1
  have h3 : W1 m ρ c (Proc.devRef .tc main_arg2) = W0 m ρ c (Proc.devRef .tc main_arg2) := by keep_ops hostOps0
  exact h1.trans (h2.trans (h3.trans rfl))

theorem W3_arg3 : W3 m ρ c (Proc.devRef .tc main_arg3) = (m ((c : Thread nD τ).loc main_arg3)) := by
  have h1 : W3 m ρ c (Proc.devRef .tc main_arg3) = W2 m ρ c (Proc.devRef .tc main_arg3) := by keep_ops hostOps0_2
  have h2 : W2 m ρ c (Proc.devRef .tc main_arg3) = W1 m ρ c (Proc.devRef .tc main_arg3) := by keep_ops hostOps0_1
  have h3 : W1 m ρ c (Proc.devRef .tc main_arg3) = W0 m ρ c (Proc.devRef .tc main_arg3) := by keep_ops hostOps0
  exact h1.trans (h2.trans (h3.trans rfl))

theorem W3_arg4 : W3 m ρ c (Proc.devRef .tc main_arg4) = (m ((c : Thread nD τ).loc main_arg4)) := by
  have h1 : W3 m ρ c (Proc.devRef .tc main_arg4) = W2 m ρ c (Proc.devRef .tc main_arg4) := by keep_ops hostOps0_2
  have h2 : W2 m ρ c (Proc.devRef .tc main_arg4) = W1 m ρ c (Proc.devRef .tc main_arg4) := by keep_ops hostOps0_1
  have h3 : W1 m ρ c (Proc.devRef .tc main_arg4) = W0 m ρ c (Proc.devRef .tc main_arg4) := by keep_ops hostOps0
  exact h1.trans (h2.trans (h3.trans rfl))

theorem W3_arg5 : W3 m ρ c (Proc.devRef .tc main_arg5) = (m ((c : Thread nD τ).loc main_arg5)) := by
  have h1 : W3 m ρ c (Proc.devRef .tc main_arg5) = W2 m ρ c (Proc.devRef .tc main_arg5) := by keep_ops hostOps0_2
  have h2 : W2 m ρ c (Proc.devRef .tc main_arg5) = W1 m ρ c (Proc.devRef .tc main_arg5) := by keep_ops hostOps0_1
  have h3 : W1 m ρ c (Proc.devRef .tc main_arg5) = W0 m ρ c (Proc.devRef .tc main_arg5) := by keep_ops hostOps0
  exact h1.trans (h2.trans (h3.trans rfl))

theorem W3_v3 : W3 m ρ c (Proc.devRef .tc main_v3) = Cert.ReferenceIdeal.ReadP.val_main_v3 (F := Ideal) (m ((c : Thread nD τ).loc main_arg1)) := by
  have h1 : W3 m ρ c (Proc.devRef .tc main_v3) = W2 m ρ c (Proc.devRef .tc main_v3) := by keep_ops hostOps0_2
  have h2 : W2 m ρ c (Proc.devRef .tc main_v3) = W1 m ρ c (Proc.devRef .tc main_v3) := by keep_ops hostOps0_1
  exact h1.trans (h2.trans (W1_v3 m ρ c))

theorem W3_v6 : W3 m ρ c (Proc.devRef .tc main_v6) = Cert.ReferenceIdeal.ReadP.val_main_v6 (F := Ideal) (m ((c : Thread nD τ).loc main_arg1)) := by
  have h1 : W3 m ρ c (Proc.devRef .tc main_v6) = W2 m ρ c (Proc.devRef .tc main_v6) := by keep_ops hostOps0_2
  have h2 : W2 m ρ c (Proc.devRef .tc main_v6) = W1 m ρ c (Proc.devRef .tc main_v6) := by keep_ops hostOps0_1
  exact h1.trans (h2.trans (W1_v6 m ρ c))

/-- The normalisation column at row `n` is the normalisation vector at `n`. -/
theorem W3_v15 (n : Fin 50000) (u : Fin 1) :
    W3 m ρ c (Proc.devRef .tc main_v15) (ValueIdx.ix2 n u) = Cert.ReferenceIdeal.ReadP.val_main_v14 (F := Ideal) (m ((c : Thread nD τ).loc main_arg1)) (ValueIdx.ix1 n) := by
  show StableHlo.after hostOps0_2 (W2 m ρ c) (Proc.devRef .tc main_v15) (ValueIdx.ix2 n u) = _
  rw [column_v15, W2_v14]
  exact ValueKeepdims.shapeCast_a_a1_apply _ _ n u

/-! ## Between the regions and after them: what no region and no later stretch writes -/

theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.ReadP.val_main_v6 (F := Ideal) (m ((c : Thread nD τ).loc main_arg1)) :=
  (W4_of_ne m ρ c main_v6 (by decide)).trans (W3_v6 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)
/-- The first region reads the column through an input window and leaves it as it was. -/
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem W5_v3 : W5 m ρ c (Proc.devRef .tc main_v3) = Cert.ReferenceIdeal.ReadP.val_main_v3 (F := Ideal) (m ((c : Thread nD τ).loc main_arg1)) := by
  have h : W5 m ρ c (Proc.devRef .tc main_v3) = W4 m ρ c (Proc.devRef .tc main_v3) := by keep_ops hostOps1
  exact h.trans (W4_v3 m ρ c)
theorem W5_v6 : W5 m ρ c (Proc.devRef .tc main_v6) = Cert.ReferenceIdeal.ReadP.val_main_v6 (F := Ideal) (m ((c : Thread nD τ).loc main_arg1)) := by
  have h : W5 m ρ c (Proc.devRef .tc main_v6) = W4 m ρ c (Proc.devRef .tc main_v6) := by keep_ops hostOps1
  exact h.trans (W4_v6 m ρ c)
theorem W5_arg4 : W5 m ρ c (Proc.devRef .tc main_arg4) = (m ((c : Thread nD τ).loc main_arg4)) := by
  have h : W5 m ρ c (Proc.devRef .tc main_arg4) = W4 m ρ c (Proc.devRef .tc main_arg4) := by keep_ops hostOps1
  exact h.trans (W4_arg4 m ρ c)
theorem W5_arg5 : W5 m ρ c (Proc.devRef .tc main_arg5) = (m ((c : Thread nD τ).loc main_arg5)) := by
  have h : W5 m ρ c (Proc.devRef .tc main_arg5) = W4 m ρ c (Proc.devRef .tc main_arg5) := by keep_ops hostOps1
  exact h.trans (W4_arg5 m ρ c)
theorem W5_v15 : W5 m ρ c (Proc.devRef .tc main_v15) = W3 m ρ c (Proc.devRef .tc main_v15) := by
  have h : W5 m ρ c (Proc.devRef .tc main_v15) = W4 m ρ c (Proc.devRef .tc main_v15) := by keep_ops hostOps1
  exact h.trans (W4_v15 m ρ c)

theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.ReadP.val_main_v6 (F := Ideal) (m ((c : Thread nD τ).loc main_arg1)) :=
  (W6_of_ne m ρ c main_v6 (by decide)).trans (W5_v6 m ρ c)
theorem W6_arg5 : W6 m ρ c (Proc.devRef .tc main_arg5) = (m ((c : Thread nD τ).loc main_arg5)) :=
  (W6_of_ne m ρ c main_arg5 (by decide)).trans (W5_arg5 m ρ c)
/-- The second region reads the column through an input window and leaves it as it was. -/
theorem W6_v15 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_v15 m ρ c)

end Cert.KernelIdeal.HostValue

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.KernelLayer.lean ====
/-
  The kernel's two host aggregations, read at an entry, for any contents of the buffers they read.

  Between its two regions the kernel's @main normalises the source column (adds `50000` to the negative entries),
  takes the rows of a `[50000, 256]` matrix at it, widens them, and adds row `e` of the result onto the row the
  destination column names for edge `e`, starting from the zero matrix (`rowAgg256`); it also reshapes a `[256]`
  vector to a row. After the second region it does the same with a `[50000, 128]` matrix (`rowAgg128`), multiplies
  each row by the row's entry of a column and adds a `[128]` vector along the lanes (`layerOut`). At the ideal instance
  the widening is the identity and the accumulating scatter is the exact sum of the updates that land on an entry, so
  each of these buffers is, entry by entry, a function of the buffers the stretch reads — whatever those hold.
-/
import proofs.«151310_j89404039233749_2_alg».proof.Proof.Gen.KernelIdeal.Frame
import proofs.«151310_j89404039233749_2_alg».proof.Proof.LibRowGather
import proofs.«151310_j89404039233749_2_alg».proof.Proof.LibKeepdims
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Layer

open Cert.KernelIdeal Cert.KernelIdeal.Gen Idealize.ShloMosaic Idealize.ShloMosaic.ValueIdx
open Idealize.ShloMosaic.TcCoe Idealize.SL.Sem

/-! ## The source row of an edge, and the index columns -/

/-- The source row of edge `e`: the source column's entry, with `50000` added where it is negative, read signed and
    clamped into the rows `0 … 49999`. -/
def srcRow (s : IVec S850000 32) (e : Fin 850000) : Fin 50000 :=
  Cert.Lib.Rows.clampRow 50000 (by decide)
    (select (cmpi .slt s (broadcastInDim S850000 ![] bcast_S_S850000 (constantI S_ 32 0#32)))
      (addi s (broadcastInDim S850000 ![] bcast_S_S850000 (constantI S_ 32 50000#32))) s (ix1 e))

/-- An edge vector made a column reads, at `(e, 0)`, the vector at `e`. -/
theorem edge_col_apply (v : IVec S850000 32) (e : Fin 850000) :
    broadcastInDim S850000x1 ![0] bcast_S850000_S850000x1_0 v (ix2 e 0) = v (ix1 e) := by
  refine broadcastInDim_apply _ _ v (ix2 e 0) (ix1 e) fun a => ?_
  match a with
  | ⟨0, _⟩ => rfl

/-- The scalar zero broadcast to a matrix reads `0` everywhere. -/
theorem zeros_apply (t : Shape) (h : S_.BroadcastsInDim t (![] : Fin 0 → Fin t.rank)) (i : t.Idx) :
    (broadcastInDim t ![] h (constant (F := Ideal) S_ .f32 0x00000000#32) : t.Idx → EReal) i = 0 := by
  refine (broadcastInDim_apply _ h _ i ix0 fun a => a.elim0).trans ?_
  rw [constant_apply, Ideal.ofBits_zero_f32]

/-- Rows gathered at the normalised source column, widened: entry `(e, f)` is the matrix at `(srcRow s e, f)`. -/
theorem gathered256_apply (x : FVec Ideal S50000x256 .bf16) (s : IVec S850000 32) (j : S850000x256.Idx) :
    extf .f32 (Host.gather gather_S50000x256_S850000x1_S850000x256_1_0_n_n_0_1_1256 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32 j
      = x (ix2 (srcRow s (j 0)) (j 1)) := by
  obtain ⟨e, f, rfl⟩ : ∃ (e : Fin 850000) (f : Fin 256), j = ix2 e f := ⟨j 0, j 1, eq_ix2 j⟩
  rw [extf_apply]
  refine (Cert.Lib.Rows.rowGather_apply (N := 50000) (R := 850000) (C := 256) (by decide)
    gather_S50000x256_S850000x1_S850000x256_1_0_n_n_0_1_1256_wf x _ e f).trans ?_
  rw [edge_col_apply]
  rfl

/-- Rows gathered at the normalised source column, widened: entry `(e, f)` is the matrix at `(srcRow s e, f)`. -/
theorem gathered128_apply (x : FVec Ideal S50000x128 .bf16) (s : IVec S850000 32) (j : S850000x128.Idx) :
    extf .f32 (Host.gather gather_S50000x128_S850000x1_S850000x128_1_0_n_n_0_1_1128 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32 j
      = x (ix2 (srcRow s (j 0)) (j 1)) := by
  obtain ⟨e, f, rfl⟩ : ∃ (e : Fin 850000) (f : Fin 128), j = ix2 e f := ⟨j 0, j 1, eq_ix2 j⟩
  rw [extf_apply]
  refine (Cert.Lib.Rows.rowGather_apply (N := 50000) (R := 850000) (C := 128) (by decide)
    gather_S50000x128_S850000x1_S850000x128_1_0_n_n_0_1_1128_wf x _ e f).trans ?_
  rw [edge_col_apply]
  rfl

/-! ## The aggregation: rows of a matrix added onto the destination rows -/

/-- The aggregate of a `[50000, 256]` matrix `x` along the edges: entry `i` is the sum, over the edge entries `(e, f)`
    that the destination column `d` sends to `i`, of `x (srcRow s e, f)` (the exact sum, from zero). -/
def rowAgg256 (x : S50000x256.Idx → EReal) (s d : IVec S850000 32) : S50000x256.Idx → EReal :=
  Ideal.hostScatterAdd (Cert.Lib.Rows.rowScatterDims 50000 850000 256 scatter_S50000x256_S850000x1_S850000x256_1_0_0_1_wf)
    (fun _ => 0) (broadcastInDim S850000x1 ![0] bcast_S850000_S850000x1_0 d) (fun j => x (ix2 (srcRow s (j 0)) (j 1)))

/-- The same for a `[50000, 128]` matrix. -/
def rowAgg128 (x : S50000x128.Idx → EReal) (s d : IVec S850000 32) : S50000x128.Idx → EReal :=
  Ideal.hostScatterAdd (Cert.Lib.Rows.rowScatterDims 50000 850000 128 scatter_S50000x128_S850000x1_S850000x128_1_0_0_1_wf)
    (fun _ => 0) (broadcastInDim S850000x1 ![0] bcast_S850000_S850000x1_0 d) (fun j => x (ix2 (srcRow s (j 0)) (j 1)))

/-- The host's gather, widening and accumulating scatter onto a zero matrix is the aggregate. -/
theorem scatter256_eq (x : FVec Ideal S50000x256 .bf16) (s d : IVec S850000 32) :
    Host.scatterAdd scatter_S50000x256_S850000x1_S850000x256_1_0_0_1
      (broadcastInDim S50000x256 ![] bcast_S_S50000x256 (constant S_ .f32 0x00000000#32))
      (broadcastInDim S850000x1 ![0] bcast_S850000_S850000x1_0 d)
      (extf .f32 (Host.gather gather_S50000x256_S850000x1_S850000x256_1_0_n_n_0_1_1256 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32)
      = rowAgg256 x s d := by
  show Ideal.hostScatterAdd scatter_S50000x256_S850000x1_S850000x256_1_0_0_1 _ _ _ = _
  unfold rowAgg256
  have hz : (broadcastInDim S50000x256 ![] bcast_S_S50000x256 (constant (F := Ideal) S_ .f32 0x00000000#32) : S50000x256.Idx → EReal)
      = fun _ => 0 := funext fun i => zeros_apply _ _ i
  have hu : (extf .f32 (Host.gather gather_S50000x256_S850000x1_S850000x256_1_0_n_n_0_1_1256 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32 : S850000x256.Idx → EReal)
      = fun j => x (ix2 (srcRow s (j 0)) (j 1)) := funext fun j => gathered256_apply x s j
  rw [hz, hu]
  rfl

theorem scatter128_eq (x : FVec Ideal S50000x128 .bf16) (s d : IVec S850000 32) :
    Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (extf .f32 (Host.gather gather_S50000x128_S850000x1_S850000x128_1_0_n_n_0_1_1128 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32)
      = rowAgg128 x s d := by
  show Ideal.hostScatterAdd scatter_S50000x128_S850000x1_S850000x128_1_0_0_1 _ _ _ = _
  unfold rowAgg128
  have hz : (broadcastInDim S50000x128 ![] bcast_S_S50000x128 (constant (F := Ideal) S_ .f32 0x00000000#32) : S50000x128.Idx → EReal)
      = fun _ => 0 := funext fun i => zeros_apply _ _ i
  have hu : (extf .f32 (Host.gather gather_S50000x128_S850000x1_S850000x128_1_0_n_n_0_1_1128 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32 : S850000x128.Idx → EReal)
      = fun j => x (ix2 (srcRow s (j 0)) (j 1)) := funext fun j => gathered128_apply x s j
  rw [hz, hu]
  rfl

/-! ## The layer's output: the aggregate scaled by a column and shifted by a bias vector -/

/-- A `[50000, 1]` column broadcast along 128 lanes reads the column's entry of the same row. -/
theorem col_bcast_apply (col : S50000x1.Idx → EReal) (i : S50000x128.Idx) :
    broadcastInDim S50000x128 ![0, 1] bcast_S50000x1_S50000x128_0_1 col i = col (ix2 (i 0) 0) := by
  refine broadcastInDim_apply _ _ col i (ix2 (i 0) 0) fun a => ?_
  match a with
  | ⟨0, _⟩ => rfl
  | ⟨1, _⟩ => rfl

/-- A `[128]` vector made a row and broadcast along the rows reads the vector's entry of the same lane. -/
theorem bias_bcast_apply (b : S128.Idx → EReal) (i : S50000x128.Idx) :
    broadcastInDim S50000x128 ![0, 1] bcast_S1x128_S50000x128_0_1 (broadcastInDim S1x128 ![1] bcast_S128_S1x128_1 b) i
      = b (ix1 (i 1)) := by
  refine (broadcastInDim_apply _ _ _ i (ix2 (0 : Fin 1) (i 1)) fun a => ?_).trans
    (broadcastInDim_apply _ _ b (ix2 (0 : Fin 1) (i 1)) (ix1 (i 1)) fun a => ?_)
  · match a with
    | ⟨0, _⟩ => rfl
    | ⟨1, _⟩ => rfl
  · match a with
    | ⟨0, _⟩ => rfl

/-- The layer's output from its five arrays: the aggregate of `x`, times the column's entry of the row, plus the bias
    vector's entry of the lane. -/
def layerOut (x : S50000x128.Idx → EReal) (s d : IVec S850000 32) (col : S50000x1.Idx → EReal) (b : S128.Idx → EReal) :
    S50000x128.Idx → EReal :=
  fun i => rowAgg128 x s d i * col (ix2 (i 0) 0) + b (ix1 (i 1))

theorem layer_eq (x : FVec Ideal S50000x128 .bf16) (s d : IVec S850000 32) (col : FVec Ideal S50000x1 .f32) (b : FVec Ideal S128 .f32) :
    addf (mulf (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (extf .f32 (Host.gather gather_S50000x128_S850000x1_S850000x128_1_0_n_n_0_1_1128 x
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s))) bitsLt_bf16_f32))
        (broadcastInDim S50000x128 ![0, 1] bcast_S50000x1_S50000x128_0_1 col))
      (broadcastInDim S50000x128 ![0, 1] bcast_S1x128_S50000x128_0_1 (broadcastInDim S1x128 ![1] bcast_S128_S1x128_1 b))
      = layerOut x s d col b := by
  funext i
  rw [addf_apply, mulf_apply, scatter128_eq, col_bcast_apply, bias_bcast_apply]
  rfl

/-! ## The two host stretches, for any contents of the buffers they read -/

variable (V : Valuation τ sig (Elt Ideal))

/-- After the first stretch the aggregate buffer holds `rowAgg256` of the gathered matrix, the source column and the
    destination column as the stretch finds them. -/
theorem agg_after :
    StableHlo.after hostOps1 V (Proc.devRef .tc main_v27)
      = rowAgg256 (V (Proc.devRef .tc main_v16)) (V (Proc.devRef .tc main_v3)) (V (Proc.devRef .tc main_v6)) := by
  refine Eq.trans ?_ (scatter256_eq (V (Proc.devRef .tc main_v16)) (V (Proc.devRef .tc main_v3)) (V (Proc.devRef .tc main_v6)))
  after_results

/-- After the first stretch the bias row reads, at `(u, k)`, the bias vector at `k`. -/
theorem bias_row_after (u : Fin 1) (k : Fin 256) :
    StableHlo.after hostOps1 V (Proc.devRef .tc main_v28) (ix2 u k) = V (Proc.devRef .tc main_arg3) (ix1 k) := by
  have h : StableHlo.after hostOps1 V (Proc.devRef .tc main_v28)
      = shapeCast S1x256 (V (Proc.devRef .tc main_arg3)) shapeCasts_S256_S1x256 := by
    after_results
    rfl
  exact (congrFun h (ix2 u k)).trans (shapeCast_a_1a_apply _ _ u k)

set_option maxHeartbeats 1000000 in
/-- After the last stretch the result buffer holds `layerOut` of the second region's output, the source and
    destination columns, the scaling column and the bias vector as the stretch finds them. -/
theorem layer_after :
    StableHlo.after hostOps2 V (Proc.devRef .tc main_v45)
      = layerOut (V (Proc.devRef .tc main_v29)) (V (Proc.devRef .tc main_v3)) (V (Proc.devRef .tc main_v6))
          (V (Proc.devRef .tc main_v15)) (V (Proc.devRef .tc main_arg5)) := by
  refine Eq.trans ?_ (layer_eq (V (Proc.devRef .tc main_v29)) (V (Proc.devRef .tc main_v3)) (V (Proc.devRef .tc main_v6))
    (V (Proc.devRef .tc main_v15)) (V (Proc.devRef .tc main_arg5)))
  after_results

/-- `agg_after` with the aggregate written out: the exact sum, from zero, of the gathered rows' entries that the
    destination column sends to the entry. -/
theorem agg_after_entry :
    StableHlo.after hostOps1 V (Proc.devRef .tc main_v27)
      = fun i => Ideal.hostScatterAdd (Cert.Lib.Rows.rowScatterDims 50000 850000 256 scatter_S50000x256_S850000x1_S850000x256_1_0_0_1_wf) (fun _ => 0)
          (broadcastInDim S850000x1 ![0] bcast_S850000_S850000x1_0 (V (Proc.devRef .tc main_v6)))
          (fun j => V (Proc.devRef .tc main_v16) (ix2 (srcRow (V (Proc.devRef .tc main_v3)) (j 0)) (j 1))) i :=
  agg_after V

/-- `layer_after` at an entry, written out: the aggregate's entry times the scaling column's entry of the row plus the
    bias vector's entry of the lane. -/
theorem layer_after_entry (i : S50000x128.Idx) :
    StableHlo.after hostOps2 V (Proc.devRef .tc main_v45) i
      = Ideal.hostScatterAdd (Cert.Lib.Rows.rowScatterDims 50000 850000 128 scatter_S50000x128_S850000x1_S850000x128_1_0_0_1_wf) (fun _ => 0)
          (broadcastInDim S850000x1 ![0] bcast_S850000_S850000x1_0 (V (Proc.devRef .tc main_v6)))
          (fun j => V (Proc.devRef .tc main_v29) (ix2 (srcRow (V (Proc.devRef .tc main_v3)) (j 0)) (j 1))) i
        * V (Proc.devRef .tc main_v15) (ix2 (i 0) 0) + V (Proc.devRef .tc main_arg5) (ix1 (i 1)) :=
  congrFun (layer_after V) i

end Cert.KernelIdeal.Layer

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Region0.lean ====
/-
  What the first pallas_call leaves in its output array, entry by entry.

  The region runs over ten grid points; point t stages rows 5000·t … 5000·t + 4999 of the left operand x (50000×128)
  and of the column d (50000×1), the whole right operand W (128×256), and writes back the same rows of the output
  (50000×256). On the extended reals the body computes, for a row p of the block and a lane q,
      (∑ k, x(p, k) · W(k, q)) · d(p, 0)
  (both roundings to bf16 are the identity there, the matrix product starts from the zero accumulator, the column is
  broadcast along the 256 lanes). Each block is therefore the restriction of ONE function of the three arrays to the
  block's rows, the ten blocks tile the output, and the output array ends holding that function.
-/
import proofs.«151310_j89404039233749_2_alg».proof.Proof.Gen.KernelIdeal.Frame
import proofs.«151310_j89404039233749_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx Idealize.ShloMosaic.TcCoe
open Idealize.ShloMosaic.Pipeline (Dat)

/-! ## A column broadcast along the lanes -/

/-- An [a, 1] column broadcast to [a, b] reads, at (p, c), the column's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an entry -/

/-- The printed record of the product's dimension numbers is the plain M×K by K×N one. -/
theorem dot_eq_plain : dot_S5000x128_S128x256_S5000x256_1_0_0_1_n_n = DotDims.plain 5000 128 256 := rfl

/-- The block the body stores, at row p and lane q: the row of the left block against the column of the right
    operand, times the column block's row. -/
theorem payload_apply (x0 : Vec Ideal S5000x128 .f32) (x1 : Vec Ideal S128x256 .f32) (x2 : Vec Ideal S5000x1 .f32)
    (p : Fin 5000) (q : Fin 256) :
    k0_pay1 x0 x1 x2 (ix2 p q) = (∑ k : Fin 128, x0 (ix2 p k) * x1 (ix2 k q)) * x2 (ix2 p (0 : Fin 1)) := by
  unfold k0_pay1
  simp only [truncf_apply, mulf_apply]
  rw [shapeCast_self, broadcastTo_a1_ab_apply, dot_eq_plain]
  refine congrArg (· * x2 (ix2 p (0 : Fin 1))) ?_
  exact Cert.Lib.PlainDot.matmul_zero_apply none (truncf .bf16 x0 bitsLt_bf16_f32) (truncf .bf16 x1 bitsLt_bf16_f32) p q

/-- The same at an index of the block. -/
theorem payload_idx (x0 : Vec Ideal S5000x128 .f32) (x1 : Vec Ideal S128x256 .f32) (x2 : Vec Ideal S5000x1 .f32)
    (j : S5000x256.Idx) :
    k0_pay1 x0 x1 x2 j = (∑ k : Fin 128, x0 (ix2 (j 0) k) * x1 (ix2 k (j 1))) * x2 (ix2 (j 0) (0 : Fin 1)) := by
  obtain ⟨p, q, rfl⟩ : ∃ (p : Fin 5000) (q : Fin 256), j = ix2 p q := ⟨j 0, j 1, eq_ix2 j⟩
  exact payload_apply x0 x1 x2 p q

/-! ## From the blocks to the array -/

theorem hz : (![0, 0] : Fin 2 → Nat) = fun _ => 0 := funext fun a => by fin_cases a <;> rfl

/-- What the output array ends holding, as one function of the left operand a0, the right operand a1 and the column
    a2: entry (r, q) is row r of a0 against column q of a1, times row r of a2. -/
def G (a0 : S50000x128.Idx → EReal) (a1 : S128x256.Idx → EReal) (a2 : S50000x1.Idx → EReal) : S50000x256.Idx → EReal :=
  fun i => (∑ k : Fin 128, a0 (ix2 (i 0) k) * a1 (ix2 k (i 1))) * a2 (ix2 (i 0) (0 : Fin 1))

/-- G at an index. -/
theorem G_apply (a0 : S50000x128.Idx → EReal) (a1 : S128x256.Idx → EReal) (a2 : S50000x1.Idx → EReal) (i : S50000x256.Idx) :
    G a0 a1 a2 i = (∑ k : Fin 128, a0 (ix2 (i 0) k) * a1 (ix2 k (i 1))) * a2 (ix2 (i 0) (0 : Fin 1)) := rfl

/-- G at row r, lane q. -/
theorem G_ix2 (a0 : S50000x128.Idx → EReal) (a1 : S128x256.Idx → EReal) (a2 : S50000x1.Idx → EReal) (r : Fin 50000) (q : Fin 256) :
    G a0 a1 a2 (ix2 r q) = (∑ k : Fin 128, a0 (ix2 r k) * a1 (ix2 k q)) * a2 (ix2 r (0 : Fin 1)) := rfl

/-- The printed index maps, decided over the ten points: the left operand's and the column's blocks move down the rows
    with the output's block, the right operand stays whole, and no window moves along its second axis. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 9 ∧ win0_3.index t (1 : Fin 2) = 0 :=
  (by decide +kernel : ∀ t : Fin grid0.N, _)

/-- Every block of rows of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- The left operand's block at point t is its rows under the output's block. -/
theorem iblk0_0_apply (c : Dev nD) (t : Fin cfg0.N) (x : S5000x128.Idx) (i : S50000x128.Idx)
    (hi0 : (i 0).val = win0_3.index t (0 : Fin 2) * 5000 + (x 0).val) (hi1 : (i 1).val = (x 1).val) :
    (iblk0 V c 0 t : Vec Ideal S5000x128 .f32) x = (V c main_arg0 : S50000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The right operand's one block is the whole operand. -/
theorem iblk0_1_apply (c : Dev nD) (t : Fin cfg0.N) (x : S128x256.Idx) :
    (iblk0 V c 1 t : Vec Ideal S128x256 .f32) x = (V c main_arg2 : S128x256.Idx → EReal) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (x 0).val = (x 0).val; omega
  | ⟨1, _⟩ => show win0_1.index t (1 : Fin 2) * 256 + 1 * (x 1).val = (x 1).val; omega

/-- The column's block at point t is its rows under the output's block. -/
theorem iblk0_2_apply (c : Dev nD) (t : Fin cfg0.N) (x : S5000x1.Idx) (i : S50000x1.Idx)
    (hi0 : (i 0).val = win0_3.index t (0 : Fin 2) * 5000 + (x 0).val) (hi1 : (i 1).val = (x 1).val) :
    (iblk0 V c 2 t : Vec Ideal S5000x1 .f32) x = (V c main_v15 : S50000x1.Idx → EReal) i := by
  obtain ⟨-, -, -, -, e0, e1, -⟩ := idx_facts t
  unfold iblk0
  rw [View.read_apply]
  show V c main_v15 _ = V c main_v15 _
  congr 1
  funext a
  apply Fin.ext
  match a with
  | ⟨0, _⟩ => show win0_2.index t (0 : Fin 2) * 5000 + 1 * (x 0).val = (i 0).val; omega
  | ⟨1, _⟩ => show win0_2.index t (1 : Fin 2) * 1 + 1 * (x 1).val = (i 1).val; omega

/-- What point t writes back is block t of G of the three arrays as the region finds them. -/
theorem flushed_eq (c : Dev nD) (t : Fin cfg0.N) :
    (dat0 (F := Ideal) V c).flushed 3 t
      = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S5000x1) hz]
  obtain ⟨-, -, -, -, -, -, -, e31⟩ := idx_facts t
  funext j
  show k0_pay1 (iblk0 V c 0 t) (iblk0 V c 1 t) (iblk0 V c 2 t) j
    = G (V c main_arg0) (V c main_arg2) (V c main_v15) (((cfg0.win 3).blk t).view.emb j)
  refine (payload_idx _ _ _ j).trans ?_
  have hr : ((((cfg0.win 3).blk t).view.emb j) 0).val = win0_3.index t (0 : Fin 2) * 5000 + (j 0).val := by
    show win0_3.index t (0 : Fin 2) * 5000 + 1 * (j 0).val = _; omega
  have hl : ((((cfg0.win 3).blk t).view.emb j) 1).val = (j 1).val := by
    show win0_3.index t (1 : Fin 2) * 256 + 1 * (j 1).val = _; omega
  unfold G
  refine congrArg₂ (· * ·) (Finset.sum_congr rfl fun k _ => congrArg₂ (· * ·) ?_ ?_) ?_
  · exact iblk0_0_apply V c t (ix2 (j 0) k) _ hr rfl
  · refine (iblk0_1_apply V c t (ix2 k (j 1))).trans (congrArg _ ?_)
    funext a
    apply Fin.ext
    match a with
    | ⟨0, _⟩ => rfl
    | ⟨1, _⟩ => exact hl.symm
  · exact iblk0_2_apply V c t (ix2 (j 0) (0 : Fin 1)) _ hr rfl

/-- An index of the output is in point t's block iff each coordinate is in the block's range on its axis. -/
theorem mem_blk (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v16).slice (win0_3.rect t)).set ↔ _
  rw [View.set_slice_whole, Rect.mem_set_unit]
  exact Iff.rfl

/-- The ten blocks of 5000 rows tile the output: row r is in the block of point r / 5000. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE OUTPUT ARRAY after the region: G of the three arrays as the region finds them. -/
theorem region0_array (c : Dev nD) :
    (dat0 (F := Ideal) V c).arrAt 3 cfg0.N = G (V c main_arg0) (V c main_arg2) (V c main_v15) :=
  (dat0 (F := Ideal) V c).arrAt_eq_of_cover 3 (G (V c main_arg0) (V c main_arg2) (V c main_v15))
    (fun t _ => flushed_eq V c t) cover

/-- The same over the region's own window arrays: window 0 is the left operand, window 1 the right, window 2 the column. -/
theorem region0_array_windows (c : Dev nD) :
    (dat0 (F := Ideal) V c).arrAt 3 cfg0.N
      = G (V c (Pipeline.arrRef spec0 0)) (V c (Pipeline.arrRef spec0 1)) (V c (Pipeline.arrRef spec0 2)) :=
  region0_array V c

end Cert.KernelIdeal.Region0

end
-- ==== Proof.Region1.lean ====
/-
  What the second pallas_call leaves in its output array, entry by entry.

  The region runs over ten grid points; point `t` reads rows `5000 t … 5000 t + 4999` of the aggregate `A : [50000, 256]`
  and of the column `D : [50000, 1]`, the whole bias row `B : [1, 256]` and the whole weight matrix `W : [256, 128]`, and
  writes rows `5000 t … 5000 t + 4999` of the output `[50000, 128]`. At the ideal instance every format change is the
  identity, the maximum is the extended reals' and the matrix product into the zero accumulator is the plain sum over
  the contracted axis, so the entry the body stores at row `p`, lane `q` of its block is

      (∑ k, max (x0 (p, k) * x1 (p, 0) + x2 (0, k)) 0 * x3 (k, q)) * x1 (p, 0)

  (`payload_apply`). Each input block is its array read at the block's rows (`agg_block`, `dinv_block`, `bias_block`,
  `weight_block`), so what point `t` writes back is block `t` of ONE function of the four arrays (`fusedOut`,
  `flushed_eq`); the ten row blocks cover the output (row `r` lies in block `r / 5000`: `rows_covered`), hence the
  output array ends as that function (`region1_array_fused`, `region1_array`).
-/
import proofs.«151310_j89404039233749_2_alg».proof.Proof.Gen.KernelIdeal.Frame
import proofs.«151310_j89404039233749_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)

/-! ## The body's stored value at an entry -/

/-- A column broadcast along 256 lanes reads the column's entry of the same row. -/
theorem col_bcast256 (x : Vec Ideal S5000x1 .f32) (p : Fin 5000) (k : Fin 256) :
    broadcastTo S5000x256 x broadcasts_S5000x1_S5000x256 (ix2 p k) = x (ix2 p 0) := by
  refine broadcastTo_apply x _ (ix2 p k) (ix2 p 0) fun a => ?_
  match a with
  | ⟨0, _⟩ => rfl
  | ⟨1, _⟩ => rfl

/-- A column broadcast along 128 lanes reads the column's entry of the same row. -/
theorem col_bcast128 (x : Vec Ideal S5000x1 .f32) (p : Fin 5000) (q : Fin 128) :
    broadcastTo S5000x128 x broadcasts_S5000x1_S5000x128 (ix2 p q) = x (ix2 p 0) := by
  refine broadcastTo_apply x _ (ix2 p q) (ix2 p 0) fun a => ?_
  match a with
  | ⟨0, _⟩ => rfl
  | ⟨1, _⟩ => rfl

/-- A row broadcast along the rows reads the row's entry of the same lane. -/
theorem row_bcast256 (x : Vec Ideal S1x256 .f32) (p : Fin 5000) (k : Fin 256) :
    broadcastTo S5000x256 x broadcasts_S1x256_S5000x256 (ix2 p k) = x (ix2 0 k) := by
  refine broadcastTo_apply x _ (ix2 p k) (ix2 0 k) fun a => ?_
  match a with
  | ⟨0, _⟩ => rfl
  | ⟨1, _⟩ => rfl

/-- The stored value at row `p`, lane `q`: the rectified affine image of row `p` of the first operand (scaled by the
    row's column entry, shifted by the bias row), contracted with column `q` of the weight matrix, and scaled by the
    second column's entry of row `p`. The format changes are the identity on extended reals, the splat constant is `0`,
    and the matrix product into the zero accumulator is the sum over the contracted axis. -/
theorem payload_apply (x0 : Vec Ideal S5000x256 .f32) (x1 : Vec Ideal S5000x1 .f32) (x2 : Vec Ideal S1x256 .f32)
    (x3 : Vec Ideal S256x128 .f32) (x4 : Vec Ideal S5000x1 .f32) (p : Fin 5000) (q : Fin 128) :
    k1_pay1 x0 x1 x2 x3 x4 (ix2 p q)
      = (∑ k : Fin 256, max (x0 (ix2 p k) * x1 (ix2 p 0) + x2 (ix2 0 k)) 0 * x3 (ix2 k q)) * x4 (ix2 p 0) := by
  unfold k1_pay1
  simp only [shapeCast_self]
  rw [truncf_apply, mulf_apply, col_bcast128]
  congr 1
  refine (Cert.Lib.PlainDot.matmul_zero_apply (M := 5000) (K := 256) (N := 128) none _ _ p q).trans ?_
  refine Finset.sum_congr rfl fun k _ => ?_
  rw [truncf_apply, truncf_apply, maximumf_apply, addf_apply, mulf_apply, broadcast_apply, col_bcast256, row_bcast256]
  show max _ (Ideal.ofBits .f32 0x00000000#32) * _ = _
  rw [Ideal.ofBits_zero_f32]

/-! ## One function of the four arrays -/

variable (V : (c : Dev nD) → (b : Ref sig .tc) → Buf (Elt Ideal) ((c : Thread nD τ).loc b))

/-- The block origin `(0, 0)` is the zero offset. -/
theorem origin_eq_zero : (![0, 0] : Fin 2 → Nat) = fun _ => 0 := funext fun a => by fin_cases a <;> rfl

/-- The output array as one function of the four arrays the region reads: entry `(r, q)` is
    `(∑ k, max (A (r, k) * D (r, 0) + B (0, k)) 0 * W (k, q)) * D (r, 0)`. -/
def fusedOut (A : S50000x256.Idx → EReal) (D : S50000x1.Idx → EReal) (B : S1x256.Idx → EReal) (W : S256x128.Idx → EReal) :
    S50000x128.Idx → EReal :=
  fun i => (∑ k : Fin 256, max (A (ix2 (i 0) k) * D (ix2 (i 0) 0) + B (ix2 0 k)) 0 * W (ix2 k (i 1))) * D (ix2 (i 0) 0)

/-- The stored value at `(p, q)` of a block is `fusedOut` at the array entry `i`, as soon as the loaded blocks agree with
    the arrays on the entries the sum reads: row `p` of the first and second operand with row `i 0` of `A` and `D`, the
    bias row with `B`, column `q` of the fourth operand with column `i 1` of `W`. -/
theorem point_entry (A : S50000x256.Idx → EReal) (D : S50000x1.Idx → EReal) (B : S1x256.Idx → EReal) (W : S256x128.Idx → EReal)
    (x0 : Vec Ideal S5000x256 .f32) (x1 : Vec Ideal S5000x1 .f32) (x2 : Vec Ideal S1x256 .f32) (x3 : Vec Ideal S256x128 .f32)
    (p : Fin 5000) (q : Fin 128) (i : S50000x128.Idx)
    (h0 : ∀ k : Fin 256, x0 (ix2 p k) = A (ix2 (i 0) k)) (h1 : x1 (ix2 p 0) = D (ix2 (i 0) 0))
    (h2 : ∀ k : Fin 256, x2 (ix2 0 k) = B (ix2 0 k)) (h3 : ∀ k : Fin 256, x3 (ix2 k q) = W (ix2 k (i 1))) :
    k1_pay1 x0 x1 x2 x3 x1 (ix2 p q) = fusedOut A D B W i := by
  rw [payload_apply, h1]
  unfold fusedOut
  congr 1
  exact Finset.sum_congr rfl fun k _ => by rw [h0, h2, h3]

/-! ## The blocks a point reads -/

/-- The index maps over the grid: at point `t` the two row-blocked inputs and the output are at block row `t`, block
    column `0`; the bias row and the weight matrix are whole, at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the first operand's block at point `t` is row `5000 t + p` of its array. -/
theorem agg_block (c : Dev nD) (t : Fin cfg1.N) (p : Fin 5000) (k : Fin 256) (r : Fin 50000) (hr : r.val = t.val * 5000 + p.val) :
    (iblk1 V c 0 t : Vec Ideal S5000x256 .f32) (ix2 p k) = (V c (Pipeline.arrRef spec1 0) : S50000x256.Idx → EReal) (ix2 r k) := by
  obtain ⟨e00, e01, -⟩ := block_indices t
  unfold iblk1
  rw [View.read_apply]
  refine congrArg (V c (Pipeline.arrRef spec1 0) : S50000x256.Idx → EReal) (funext fun a => Fin.ext ?_)
  match a with
  | ⟨0, _⟩ => show win1_0.index t (0 : Fin 2) * 5000 + 1 * p.val = r.val; omega
  | ⟨1, _⟩ => show win1_0.index t (1 : Fin 2) * 256 + 1 * k.val = k.val; omega

/-- Row `p` of the column's block at point `t` is row `5000 t + p` of the column. -/
theorem dinv_block (c : Dev nD) (t : Fin cfg1.N) (p : Fin 5000) (r : Fin 50000) (hr : r.val = t.val * 5000 + p.val) :
    (iblk1 V c 1 t : Vec Ideal S5000x1 .f32) (ix2 p 0) = (V c (Pipeline.arrRef spec1 1) : S50000x1.Idx → EReal) (ix2 r 0) := by
  obtain ⟨-, -, e10, e11, -⟩ := block_indices t
  unfold iblk1
  rw [View.read_apply]
  refine congrArg (V c (Pipeline.arrRef spec1 1) : S50000x1.Idx → EReal) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias row's block is the whole row at every point. -/
theorem bias_block (c : Dev nD) (t : Fin cfg1.N) (k : Fin 256) :
    (iblk1 V c 2 t : Vec Ideal S1x256 .f32) (ix2 0 k) = (V c (Pipeline.arrRef spec1 2) : S1x256.Idx → EReal) (ix2 0 k) := by
  obtain ⟨-, -, -, -, e20, e21, -⟩ := block_indices t
  unfold iblk1
  rw [View.read_apply]
  refine congrArg (V c (Pipeline.arrRef spec1 2) : S1x256.Idx → EReal) (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

/-- The weight matrix's block is the whole matrix at every point. -/
theorem weight_block (c : Dev nD) (t : Fin cfg1.N) (k : Fin 256) (q : Fin 128) :
    (iblk1 V c 3 t : Vec Ideal S256x128 .f32) (ix2 k q) = (V c (Pipeline.arrRef spec1 3) : S256x128.Idx → EReal) (ix2 k q) := by
  obtain ⟨-, -, -, -, -, -, e30, e31, -⟩ := block_indices t
  unfold iblk1
  rw [View.read_apply]
  refine congrArg (V c (Pipeline.arrRef spec1 3) : S256x128.Idx → EReal) (funext fun a => Fin.ext ?_)
  match a with
  | ⟨0, _⟩ => show win1_3.index t (0 : Fin 2) * 256 + 1 * k.val = k.val; omega
  | ⟨1, _⟩ => show win1_3.index t (1 : Fin 2) * 128 + 1 * q.val = q.val; omega

/-! ## What a point writes back, and the whole array -/

/-- What point `t` writes back is block `t` of `fusedOut` of the four arrays as the region finds them: the body's one
    whole-block store holds the stored value of the loaded blocks, and entry `(p, q)` of the block is entry
    `(5000 t + p, q)` of the array. -/
theorem flushed_eq (c : Dev nD) (t : Fin cfg1.N) :
    (dat1 (F := Ideal) V c).flushed 4 t
      = ((cfg1.win 4).blk t).view.read (Elt Ideal)
          (fusedOut (V c (Pipeline.arrRef spec1 0)) (V c (Pipeline.arrRef spec1 1)) (V c (Pipeline.arrRef spec1 2))
            (V c (Pipeline.arrRef spec1 3))) := by
  show (cfg1.win 4).cut (grid1.coords t) ((dat1 V c).after 4 t) = _
  rw [after1_4]
  unfold out1_4
  rw [View.canon_unit_zero origin_eq_zero]
  simp only [View.ld_unit_zero (S := S5000x256) origin_eq_zero, View.ld_unit_zero (S := S5000x1) origin_eq_zero,
    View.ld_unit_zero (S := S1x256) origin_eq_zero, View.ld_unit_zero (S := S256x128) origin_eq_zero]
  obtain ⟨-, -, -, -, -, -, -, -, e40, e41⟩ := block_indices t
  funext j
  have hp : (j 0).val < 5000 := (j 0).isLt
  have hq : (j 1).val < 128 := (j 1).isLt
  have hx : (cfg1.win 4).xinj (grid1.coords t) j = ix2 (⟨(j 0).val, hp⟩ : Fin 5000) (⟨(j 1).val, hq⟩ : Fin 128) :=
    funext fun a => by match a with | ⟨0, _⟩ => rfl | ⟨1, _⟩ => rfl
  show k1_pay1 (iblk1 V c 0 t) (iblk1 V c 1 t) (iblk1 V c 2 t) (iblk1 V c 3 t) (iblk1 V c 1 t) ((cfg1.win 4).xinj (grid1.coords t) j)
    = fusedOut _ _ _ _ (((cfg1.win 4).blk t).view.emb j)
  rw [hx]
  have hr : ((((cfg1.win 4).blk t).view.emb j) 0).val = t.val * 5000 + (j 0).val := by
    show win1_4.index t (0 : Fin 2) * 5000 + 1 * (j 0).val = _
    omega
  have hc : ((((cfg1.win 4).blk t).view.emb j) 1).val = (j 1).val := by
    show win1_4.index t (1 : Fin 2) * 128 + 1 * (j 1).val = _
    omega
  refine point_entry _ _ _ _ _ _ _ _ _ _ _ (fun k => ?_) ?_ (fun k => ?_) (fun k => ?_)
  · exact agg_block V c t _ k _ hr
  · exact dinv_block V c t _ _ hr
  · exact bias_block V c t k
  · have hq' : (⟨(j 1).val, hq⟩ : Fin 128) = (((cfg1.win 4).blk t).view.emb j) 1 := Fin.ext hc.symm
    rw [hq']
    exact weight_block V c t k _

/-- An entry of the output array is in point `t`'s block iff each coordinate is in the block's range on its axis. -/
theorem mem_row_block (t : Fin cfg1.N) (i : S50000x128.Idx) :
    i ∈ ((cfg1.win 4).blk t).view.set
      ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- The ten row blocks cover the output: row `r` lies in the block of point `r / 5000`, which is written back. -/
theorem rows_covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, e40, e41⟩ := block_indices t
  have ht : t.val = (i 0).val / 5000 := rfl
  refine ⟨t, flush1_4 t, ?_⟩
  rw [mem_row_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The output array after the region is `fusedOut` of the four arrays as the region finds them. -/
theorem region1_array_fused (c : Dev nD) :
    (dat1 (F := Ideal) V c).arrAt 4 cfg1.N
      = fusedOut (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) rows_covered

/-- The closed form, entry by entry, for the four arrays under any names: with `A`, `D`, `B`, `W` the contents of the
    region's four input arrays on entry, the output array ends with
    `(∑ k, max (A (r, k) * D (r, 0) + B (0, k)) 0 * W (k, q)) * D (r, 0)` at entry `(r, q)`. -/
theorem region1_array (c : Dev nD) (A : S50000x256.Idx → EReal) (D : S50000x1.Idx → EReal) (B : S1x256.Idx → EReal)
    (W : S256x128.Idx → EReal) (hA : V c (Pipeline.arrRef spec1 0) = A) (hD : V c (Pipeline.arrRef spec1 1) = D)
    (hB : V c (Pipeline.arrRef spec1 2) = B) (hW : V c (Pipeline.arrRef spec1 3) = W) :
    (dat1 (F := Ideal) V c).arrAt 4 cfg1.N
      = fun i : S50000x128.Idx =>
          (∑ k : Fin 256, max (A (ix2 (i 0) k) * D (ix2 (i 0) 0) + B (ix2 0 k)) 0 * W (ix2 k (i 1))) * D (ix2 (i 0) 0) := by
  subst hA hD hB hW
  exact region1_array_fused V c

end Cert.KernelIdeal.Region1

end
-- ==== Proof.RefLayer.lean ====
/-
  The reference's edge messages, read at an entry.

  The reference normalises each edge's source and destination node (a negative index is wrapped by the node count) and
  takes, per edge e, the row of the per-node features at the source node — a gather, which clamps the index into the
  node range — times the edge's weight, the product of the per-node scale at the source and at the destination. Here
  the two layers' message arrays are read at an entry (edge, lane) through their gathers, and the two aggregations are
  spelt as the exact scatter-sum of those messages onto the zero array at the raw destination column.
-/
import proofs.«151310_j89404039233749_2_alg».proof.Proof.RefRead
import proofs.«151310_j89404039233749_2_alg».proof.Proof.LibRowGather
import Idealize.ShloMosaic.Lib.ValueIdx
import Idealize.ShloMosaic.PureOps.Ideal.Laws

noncomputable section

namespace Cert.RefLayer

open Cert.ReferenceIdeal Cert.ReferenceIdeal.Gen Cert.ReferenceIdeal.ReadP Idealize.ShloMosaic Idealize.ShloMosaic.ValueIdx
open Cert.Lib.Rows

/-! ## The printed records are the row-taking and row-adding dimension numbers -/

theorem gatherVec_eq : gather_S50000_S850000x1_S850000_n_0_n_n_0_1_1
    = vecGatherDims 50000 850000 Facts₀.gather_S50000_S850000x1_S850000_n_0_n_n_0_1_1_wf := rfl

theorem gatherRows256_eq : gather_S50000x256_S850000x1_S850000x256_1_0_n_n_0_1_1256
    = rowGatherDims 50000 850000 256 Facts₀.gather_S50000x256_S850000x1_S850000x256_1_0_n_n_0_1_1256_wf := rfl

theorem gatherRows128_eq : gather_S50000x128_S850000x1_S850000x128_1_0_n_n_0_1_1128
    = rowGatherDims 50000 850000 128 Facts₀.gather_S50000x128_S850000x1_S850000x128_1_0_n_n_0_1_1128_wf := rfl

theorem scatterRows256_eq : scatter_S50000x256_S850000x1_S850000x256_1_0_0_1
    = rowScatterDims 50000 850000 256 Facts₀.scatter_S50000x256_S850000x1_S850000x256_1_0_0_1_wf := rfl

theorem scatterRows128_eq : scatter_S50000x128_S850000x1_S850000x128_1_0_0_1
    = rowScatterDims 50000 850000 128 Facts₀.scatter_S50000x128_S850000x1_S850000x128_1_0_0_1_wf := rfl

/-! ## The edge's two rows -/

/-- The source row of edge e: its normalised source index, clamped into the node range. -/
def sRow (x1 : (⟨S2x800000, .i32⟩ : BufTy).Contents (Elt Ideal)) (e : Fin 850000) : Fin 50000 :=
  clampRow 50000 (by decide) (val_main_v19 (F := Ideal) x1 (ix1 e))

/-- The destination row of edge e: its normalised destination index, clamped into the node range. -/
def dRow (x1 : (⟨S2x800000, .i32⟩ : BufTy).Contents (Elt Ideal)) (e : Fin 850000) : Fin 50000 :=
  clampRow 50000 (by decide) (val_main_v26 (F := Ideal) x1 (ix1 e))

/-! ## The index columns -/

/-- The three normalised source columns are one stage: the same select of the same compare and add of the raw source. -/
theorem v35_eq_v19 (x1 : (⟨S2x800000, .i32⟩ : BufTy).Contents (Elt Ideal)) :
    val_main_v35 (F := Ideal) x1 = val_main_v19 (F := Ideal) x1 := rfl

theorem v53_eq_v19 (x1 : (⟨S2x800000, .i32⟩ : BufTy).Contents (Elt Ideal)) :
    val_main_v53 (F := Ideal) x1 = val_main_v19 (F := Ideal) x1 := rfl

/-- The column of a vector, read at row e, is the vector at e. -/
theorem col20 (x1 : (⟨S2x800000, .i32⟩ : BufTy).Contents (Elt Ideal)) (e : Fin 850000) :
    val_main_v20 (F := Ideal) x1 (ix2 e (0 : Fin 1)) = val_main_v19 (F := Ideal) x1 (ix1 e) := by
  rw [val_main_v20_apply]
  exact congrArg _ (funext fun a => match a with | ⟨0, _⟩ => rfl)

theorem col27 (x1 : (⟨S2x800000, .i32⟩ : BufTy).Contents (Elt Ideal)) (e : Fin 850000) :
    val_main_v27 (F := Ideal) x1 (ix2 e (0 : Fin 1)) = val_main_v26 (F := Ideal) x1 (ix1 e) := by
  rw [val_main_v27_apply]
  exact congrArg _ (funext fun a => match a with | ⟨0, _⟩ => rfl)

theorem col36 (x1 : (⟨S2x800000, .i32⟩ : BufTy).Contents (Elt Ideal)) (e : Fin 850000) :
    val_main_v36 (F := Ideal) x1 (ix2 e (0 : Fin 1)) = val_main_v19 (F := Ideal) x1 (ix1 e) := by
  rw [val_main_v36_apply, v35_eq_v19]
  exact congrArg _ (funext fun a => match a with | ⟨0, _⟩ => rfl)

theorem col54 (x1 : (⟨S2x800000, .i32⟩ : BufTy).Contents (Elt Ideal)) (e : Fin 850000) :
    val_main_v54 (F := Ideal) x1 (ix2 e (0 : Fin 1)) = val_main_v19 (F := Ideal) x1 (ix1 e) := by
  rw [val_main_v54_apply, v53_eq_v19]
  exact congrArg _ (funext fun a => match a with | ⟨0, _⟩ => rfl)

/-! ## The edge's weight -/

/-- The per-node scale taken at the edge's source. -/
theorem v21_apply (x1 : (⟨S2x800000, .i32⟩ : BufTy).Contents (Elt Ideal)) (e : Fin 850000) :
    val_main_v21 (F := Ideal) x1 (ix1 e) = val_main_v14 (F := Ideal) x1 (ix1 (sRow x1 e)) := by
  unfold val_main_v21
  rw [gatherVec_eq, vecGather_apply (by decide), col20]
  rfl

/-- The per-node scale taken at the edge's destination. -/
theorem v28_apply (x1 : (⟨S2x800000, .i32⟩ : BufTy).Contents (Elt Ideal)) (e : Fin 850000) :
    val_main_v28 (F := Ideal) x1 (ix1 e) = val_main_v14 (F := Ideal) x1 (ix1 (dRow x1 e)) := by
  unfold val_main_v28
  rw [gatherVec_eq, vecGather_apply (by decide), col27]
  rfl

/-- The edge's weight: the scale at its source times the scale at its destination. -/
theorem v29_apply (x1 : (⟨S2x800000, .i32⟩ : BufTy).Contents (Elt Ideal)) (e : Fin 850000) :
    val_main_v29 (F := Ideal) x1 (ix1 e)
      = val_main_v14 (F := Ideal) x1 (ix1 (sRow x1 e)) * val_main_v14 (F := Ideal) x1 (ix1 (dRow x1 e)) := by
  rw [val_main_v29_apply, v21_apply, v28_apply]
  rfl

/-- The weight as each layer's message array carries it: the weight's column, broadcast along the lanes. -/
theorem v39_apply (x1 : (⟨S2x800000, .i32⟩ : BufTy).Contents (Elt Ideal)) (e : Fin 850000) (f : Fin 256) :
    val_main_v39 (F := Ideal) x1 (ix2 e f) = val_main_v29 (F := Ideal) x1 (ix1 e) := by
  rw [val_main_v39_apply, val_main_v38_apply]
  exact congrArg _ (funext fun a => match a with | ⟨0, _⟩ => rfl)

theorem v57_apply (x1 : (⟨S2x800000, .i32⟩ : BufTy).Contents (Elt Ideal)) (e : Fin 850000) (f : Fin 128) :
    val_main_v57 (F := Ideal) x1 (ix2 e f) = val_main_v29 (F := Ideal) x1 (ix1 e) := by
  rw [val_main_v57_apply, val_main_v56_apply]
  exact congrArg _ (funext fun a => match a with | ⟨0, _⟩ => rfl)

/-! ## The features' rows taken at the source -/

/-- Layer 1: the row of the first product at the edge's source. -/
theorem v37_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (e : Fin 850000) (f : Fin 256) :
    val_main_v37 (F := Ideal) x0 x1 x2 (ix2 e f) = val_main_v30 (F := Ideal) x0 x2 (ix2 (sRow x1 e) f) := by
  unfold val_main_v37
  rw [gatherRows256_eq, rowGather_apply (by decide), col36]
  rfl

/-- Layer 2: the row of the second product at the edge's source. -/
theorem v55_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (e : Fin 850000) (f : Fin 128) :
    val_main_v55 (F := Ideal) x0 x1 x2 x3 x4 (ix2 e f) = val_main_v48 (F := Ideal) x0 x1 x2 x3 x4 (ix2 (sRow x1 e) f) := by
  unfold val_main_v55
  rw [gatherRows128_eq, rowGather_apply (by decide), col54]
  rfl

/-! ## The messages -/

/-- LAYER 1'S MESSAGE at (edge, lane): the first product's row at the edge's source, times the edge's weight. -/
theorem layer1_message (x0 : (⟨S50000x128, .f32⟩ : BufTy).Contents (Elt Ideal)) (x1 : (⟨S2x800000, .i32⟩ : BufTy).Contents (Elt Ideal))
    (x2 : (⟨S128x256, .f32⟩ : BufTy).Contents (Elt Ideal)) (j : S850000x256.Idx) :
    val_main_v40 (F := Ideal) x0 x1 x2 j
      = val_main_v30 (F := Ideal) x0 x2 (ix2 (sRow x1 (j 0)) (j 1))
        * (val_main_v14 (F := Ideal) x1 (ix1 (sRow x1 (j 0))) * val_main_v14 (F := Ideal) x1 (ix1 (dRow x1 (j 0)))) := by
  obtain ⟨e, f, rfl⟩ : ∃ (e : Fin 850000) (f : Fin 256), j = ix2 e f := ⟨j 0, j 1, eq_ix2 j⟩
  rw [val_main_v40_apply, v37_apply, v39_apply, v29_apply]
  rfl

/-- LAYER 2'S MESSAGE at (edge, lane): the second product's row at the edge's source, times the edge's weight. -/
theorem layer2_message (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (j : S850000x128.Idx) :
    val_main_v58 (F := Ideal) x0 x1 x2 x3 x4 j
      = val_main_v48 (F := Ideal) x0 x1 x2 x3 x4 (ix2 (sRow x1 (j 0)) (j 1))
        * (val_main_v14 (F := Ideal) x1 (ix1 (sRow x1 (j 0))) * val_main_v14 (F := Ideal) x1 (ix1 (dRow x1 (j 0)))) := by
  obtain ⟨e, f, rfl⟩ : ∃ (e : Fin 850000) (f : Fin 128), j = ix2 e f := ⟨j 0, j 1, eq_ix2 j⟩
  rw [val_main_v58_apply, v55_apply, v57_apply, v29_apply]
  rfl

/-! ## The aggregations -/

/-- LAYER 1'S AGGREGATION: the exact sum of the messages onto the zero array, message row e onto the row its raw
    destination names (dropped when that row is outside the node range). -/
theorem aggregate1_eq (x0 : (⟨S50000x128, .f32⟩ : BufTy).Contents (Elt Ideal)) (x1 : (⟨S2x800000, .i32⟩ : BufTy).Contents (Elt Ideal))
    (x2 : (⟨S128x256, .f32⟩ : BufTy).Contents (Elt Ideal)) :
    val_main_v43 (F := Ideal) x0 x1 x2
      = fun i => Ideal.hostScatterAdd (rowScatterDims 50000 850000 256 Facts₀.scatter_S50000x256_S850000x1_S850000x256_1_0_0_1_wf)
          (val_main_v41 (F := Ideal)) (val_main_v9 (F := Ideal) x1) (val_main_v40 (F := Ideal) x0 x1 x2) i := rfl

/-- LAYER 2'S AGGREGATION, likewise. -/
theorem aggregate2_eq (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) :
    val_main_v61 (F := Ideal) x0 x1 x2 x3 x4
      = fun i => Ideal.hostScatterAdd (rowScatterDims 50000 850000 128 Facts₀.scatter_S50000x128_S850000x1_S850000x128_1_0_0_1_wf)
          (val_main_v59 (F := Ideal)) (val_main_v9 (F := Ideal) x1) (val_main_v58 (F := Ideal) x0 x1 x2 x3 x4) i := rfl

/-- The arrays the aggregations add onto are zero. -/
theorem v41_zero (i : S50000x256.Idx) : (val_main_v41 (F := Ideal) i : EReal) = 0 := by
  rw [val_main_v41_apply, val_main_cst_8_apply]
  exact Ideal.ofBits_zero_f32

theorem v59_zero (i : S50000x128.Idx) : (val_main_v59 (F := Ideal) i : EReal) = 0 := by
  rw [val_main_v59_apply, val_main_cst_11_apply]
  exact Ideal.ofBits_zero_f32

end Cert.RefLayer

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.RealAlgebra.lean ====
/-
  Real entries inside the extended reals, and a scale moved into a sum.

  On the extended reals multiplication does not distribute over addition at the infinities, so a node-wise scale
  `d` can be moved inside a sum of edge messages, `(∑ⱼ Xⱼ·Dsⱼ)·d = ∑ⱼ Xⱼ·(Dsⱼ·d)`, only when everything in sight is a
  real number. `IsR a` says that the extended real `a` is a real number; it is kept by `0`, `+`, `*`, `max` and finite
  sums. The identity (`scale_into_sum`) is then distributivity in `ℝ`, read through the coercion. Also here: the
  value `where(a > 0, 1/√a, 0)` of a real `a` is a real number (for `a > 0` it is `(√a)⁻¹`, otherwise `0`), and the f32
  patterns of `0.0` and `1.0` are the real numbers 0 and 1.
-/
import Mathlib.Data.EReal.Operations
import Mathlib.Algebra.BigOperators.Ring.Finset
import Mathlib.Tactic.Ring
import Idealize.ShloMosaic.PureOps.Ideal
import Idealize.ShloMosaic.PureOps.Ideal.Laws
import proofs.«151310_j89404039233749_2_alg».proof.Proof.LibERealSum

noncomputable section

namespace Cert.RealAlgebra

open Idealize.ShloMosaic
open Cert.Lib.ERealSum

/-- The extended real `a` is a real number. -/
def IsR (a : EReal) : Prop := ∃ r : ℝ, a = (r : EReal)

theorem isR_coe (r : ℝ) : IsR (r : EReal) := ⟨r, rfl⟩

theorem isR_zero : IsR (0 : EReal) := ⟨0, EReal.coe_zero.symm⟩

theorem isR_one : IsR (1 : EReal) := ⟨1, EReal.coe_one.symm⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.max {a b : EReal} (ha : IsR a) (hb : IsR b) : IsR (max a b) := by
  rcases max_choice a b with h | h <;> rw [h] <;> assumption

/-- A finite sum of real numbers is a real number. -/
theorem isR_sum {ι : Type*} (S : Finset ι) (f : ι → EReal) (h : ∀ i ∈ S, IsR (f i)) : IsR (∑ i ∈ S, f i) :=
  Finset.sum_induction f IsR (fun _ _ ha hb => ha.add hb) isR_zero h

/-- The same over a whole finite type. -/
theorem isR_sum_univ {ι : Type*} [Fintype ι] (f : ι → EReal) (h : ∀ i, IsR (f i)) : IsR (∑ i, f i) :=
  isR_sum Finset.univ f fun i _ => h i

/-- A common scale `d` moved into a sum of products, all entries real: `(∑ⱼ Xⱼ·Dsⱼ)·d = ∑ⱼ Xⱼ·(Dsⱼ·Ddⱼ)` when
    every `Ddⱼ` is `d`. (The leading `0 +` is the reduction's initial value.) -/
theorem scale_into_sum {J : Type*} (S : Finset J) (X Ds Dd : J → EReal) (d : EReal) (hX : ∀ j ∈ S, IsR (X j))
    (hDs : ∀ j ∈ S, IsR (Ds j)) (hd : IsR d) (hDd : ∀ j ∈ S, Dd j = d) :
    (0 + ∑ j ∈ S, X j * Ds j) * d = 0 + ∑ j ∈ S, X j * (Ds j * Dd j) := by
  obtain ⟨dr, rfl⟩ := hd
  have hX' : ∀ j ∈ S, ∃ r : ℝ, X j = (r : EReal) := hX
  have hDs' : ∀ j ∈ S, ∃ r : ℝ, Ds j = (r : EReal) := hDs
  choose! xr hxr using hX'
  choose! sr hsr using hDs'
  have e1 : ∑ j ∈ S, X j * Ds j = ((∑ j ∈ S, xr j * sr j : ℝ) : EReal) := by
    rw [coe_sum]
    exact Finset.sum_congr rfl fun j hj => by rw [hxr j hj, hsr j hj, EReal.coe_mul]
  have e2 : ∑ j ∈ S, X j * (Ds j * Dd j) = ((∑ j ∈ S, xr j * (sr j * dr) : ℝ) : EReal) := by
    rw [coe_sum]
    exact Finset.sum_congr rfl fun j hj => by rw [hxr j hj, hsr j hj, hDd j hj, EReal.coe_mul, EReal.coe_mul]
  rw [e1, e2, zero_add, zero_add, ← EReal.coe_mul, Finset.sum_mul]
  exact congrArg _ (Finset.sum_congr rfl fun j _ => by ring)

/-- The f32 pattern of `0.0` is the real number 0. -/
theorem isR_ofBits_zero : IsR (FloatOps.ofBits (F := Ideal) .f32 0x00000000#32) := by
  rw [Ideal.ofBits_def, Ideal.ofBits_zero_f32]
  exact isR_zero

/-- The f32 pattern of `1.0` is the real number 1. -/
theorem isR_ofBits_one : IsR (FloatOps.ofBits (F := Ideal) .f32 0x3F800000#32) := by
  rw [Ideal.ofBits_def]
  exact ⟨1, by simp [Ideal.ofBits, Ideal.ieee, -EReal.coe_mul]; norm_num⟩

/-- The inverse square root of a positive real number is a real number. -/
theorem isR_rsqrt_of_pos {r : ℝ} (h : 0 < r) : IsR (Ideal.rsqrt (r : EReal)) := by
  rw [Ideal.rsqrt_coe, if_neg (not_lt.2 h.le), if_neg h.ne']
  exact isR_coe _

/-- `where(a > 0, 1/√a, 0)` at a real `a` is a real number. -/
theorem isR_where_rsqrt (a : EReal) (ha : IsR a) :
    IsR (Scalar.select (FloatOps.cmpf (F := Ideal) (φ := .f32) .ogt a (FloatOps.ofBits (F := Ideal) .f32 0x00000000#32))
      (FloatOps.hostUnary (F := Ideal) (φ := .f32) .rsqrt a) (FloatOps.ofBits (F := Ideal) .f32 0x00000000#32)) := by
  obtain ⟨r, rfl⟩ := ha
  unfold Scalar.select
  split
  · rename_i hc
    rw [Ideal.cmpf_def, Ideal.ofBits_def, Ideal.ofBits_zero_f32] at hc
    have hpos : 0 < r := by
      by_contra hn
      have : ¬ ((0 : EReal) < (r : EReal)) := fun h' => hn (EReal.coe_pos.1 h')
      simp [Ideal.cmp, this] at hc
    rw [Ideal.hostUnary_rsqrt_def]
    exact isR_rsqrt_of_pos hpos
  · exact isR_ofBits_zero

end Cert.RealAlgebra

end
-- ==== Proof.RefDots.lean ====
/-
  The reference's two matrix products, its bias/ReLU step and its last line, read at an entry, and that they are real
  numbers on real inputs.

  Layer 1 multiplies the node features by the first weight matrix; the messages built from that product are summed
  per destination node; layer 2 adds the first bias along the lanes, clips at zero, and multiplies by the second
  weight matrix; the last line adds the second bias to layer 2's sum. Each product is the plain sum over the contracted
  index. When the features, the weights, the first bias and the per-node scale are real numbers, so are the first
  product, layer 1's sum and the second product: sums, products and maxima of real numbers are real.
-/
import proofs.«151310_j89404039233749_2_alg».proof.Proof.RefRead
import proofs.«151310_j89404039233749_2_alg».proof.Proof.RefLayer
import proofs.«151310_j89404039233749_2_alg».proof.Proof.RealAlgebra
import Idealize.ShloMosaic.Lib.ValueIdx
import Idealize.ShloMosaic.PureOps.Ideal.Laws

noncomputable section

open scoped BigOperators

namespace Cert.RefDots

open Cert.ReferenceIdeal Cert.ReferenceIdeal.Gen Cert.ReferenceIdeal.ReadP Idealize.ShloMosaic Idealize.ShloMosaic.ValueIdx
open Cert.RealAlgebra Cert.RefLayer Cert.Lib.Rows

/-! ## The two products and the steps between them, at an entry -/

/-- THE FIRST PRODUCT at row r, lane q: row r of the features against column q of the first weight matrix. -/
theorem dot1 (x0 : (⟨S50000x128, .f32⟩ : BufTy).Contents (Elt Ideal)) (x2 : (⟨S128x256, .f32⟩ : BufTy).Contents (Elt Ideal))
    (r : Fin 50000) (q : Fin 256) :
    val_main_v30 (F := Ideal) x0 x2 (ix2 r q) = ∑ k : Fin 128, x0 (ix2 r k) * x2 (ix2 k q) := by
  rw [val_main_v30_apply]
  refine Finset.sum_congr rfl fun k _ => ?_
  have el : lidx_main_v30 (ix2 r q) k = ix2 r k := funext fun a => match a with
    | ⟨0, _⟩ => rfl
    | ⟨1, _⟩ => rfl
  have er : ridx_main_v30 (ix2 r q) k = ix2 k q := funext fun a => match a with
    | ⟨0, _⟩ => rfl
    | ⟨1, _⟩ => rfl
  rw [el, er]

/-- The first bias, broadcast over the rows, at row r, lane k. -/
theorem bias1_apply (x3 : (⟨S256, .f32⟩ : BufTy).Contents (Elt Ideal)) (r : Fin 50000) (k : Fin 256) :
    val_main_v45 (F := Ideal) x3 (ix2 r k) = x3 (ix1 k) := by
  rw [val_main_v45_apply, val_main_v44_apply]
  exact congrArg _ (funext fun a => match a with | ⟨0, _⟩ => rfl)

/-- Layer 2's input at row r, lane k: layer 1's sum plus the first bias, clipped at zero. -/
theorem relu_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (r : Fin 50000) (k : Fin 256) :
    val_main_v47 (F := Ideal) x0 x1 x2 x3 (ix2 r k)
      = max (val_main_v43 (F := Ideal) x0 x1 x2 (ix2 r k) + x3 (ix1 k)) (0 : EReal) := by
  rw [val_main_v47_apply, val_main_v46_apply, bias1_apply, val_main_call1_v0_apply, val_main_call1_cst_apply]
  show max (val_main_v43 (F := Ideal) x0 x1 x2 (ix2 r k) + x3 (ix1 k)) (Ideal.ofBits .f32 0x00000000#32) = _
  rw [Ideal.ofBits_zero_f32]

/-- THE SECOND PRODUCT at row r, lane q: row r of layer 2's input against column q of the second weight matrix. -/
theorem dot2 (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (r : Fin 50000) (q : Fin 128) :
    val_main_v48 (F := Ideal) x0 x1 x2 x3 x4 (ix2 r q)
      = ∑ k : Fin 256, max (val_main_v43 (F := Ideal) x0 x1 x2 (ix2 r k) + x3 (ix1 k)) (0 : EReal) * x4 (ix2 k q) := by
  rw [val_main_v48_apply]
  refine Finset.sum_congr rfl fun k _ => ?_
  have el : lidx_main_v48 (ix2 r q) k = ix2 r k := funext fun a => match a with
    | ⟨0, _⟩ => rfl
    | ⟨1, _⟩ => rfl
  have er : ridx_main_v48 (ix2 r q) k = ix2 k q := funext fun a => match a with
    | ⟨0, _⟩ => rfl
    | ⟨1, _⟩ => rfl
  rw [el, er, relu_apply]

/-- THE LAST LINE: layer 2's sum plus the second bias along the lanes. -/
theorem last_line (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) (i : S50000x128.Idx) :
    val_main_v64 (F := Ideal) x0 x1 x2 x3 x4 x5 i
      = val_main_v61 (F := Ideal) x0 x1 x2 x3 x4 i + x5 (ix1 (i 1)) := by
  rw [val_main_v64_apply, val_main_v63_apply, val_main_v62_apply]
  show val_main_v61 (F := Ideal) x0 x1 x2 x3 x4 i + x5 (idx_main_v62 (idx_main_v63 i)) = _
  exact congrArg (fun z => val_main_v61 (F := Ideal) x0 x1 x2 x3 x4 i + x5 z) (funext fun a => match a with | ⟨0, _⟩ => rfl)

/-! ## Real inputs give real stages -/

/-- The first product of real features and real weights is real. -/
theorem isR_v30 (x0 : (⟨S50000x128, .f32⟩ : BufTy).Contents (Elt Ideal)) (x2 : (⟨S128x256, .f32⟩ : BufTy).Contents (Elt Ideal))
    (hx0 : ∀ i, IsR (x0 i)) (hx2 : ∀ i, IsR (x2 i)) (i : S50000x256.Idx) : IsR (val_main_v30 (F := Ideal) x0 x2 i) := by
  rw [val_main_v30_apply]
  exact isR_sum_univ _ fun k => (hx0 _).mul (hx2 _)

/-- Layer 1's sum at an entry: the zero array's entry plus the messages whose destination is this entry. -/
theorem v43_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (i : S50000x256.Idx) :
    val_main_v43 (F := Ideal) x0 x1 x2 i
      = (val_main_v41 (F := Ideal) i : EReal)
        + ∑ j ∈ Finset.univ.filter (fun j : S850000x256.Idx =>
            (rowScatterDims 50000 850000 256 Facts₀.scatter_S50000x256_S850000x1_S850000x256_1_0_0_1_wf).resultIdx? j
              (val_main_v9 (F := Ideal) x1) = some i),
          (val_main_v40 (F := Ideal) x0 x1 x2 j : EReal) :=
  congrFun (aggregate1_eq x0 x1 x2) i

/-- Layer 1's sum is real when the features, the first weights and the per-node scale are. -/
theorem isR_v43 (x0 : (⟨S50000x128, .f32⟩ : BufTy).Contents (Elt Ideal)) (x1 : (⟨S2x800000, .i32⟩ : BufTy).Contents (Elt Ideal))
    (x2 : (⟨S128x256, .f32⟩ : BufTy).Contents (Elt Ideal))
    (hx0 : ∀ i, IsR (x0 i)) (hx2 : ∀ i, IsR (x2 i)) (hD : ∀ n, IsR (val_main_v14 (F := Ideal) x1 n)) (i : S50000x256.Idx) :
    IsR (val_main_v43 (F := Ideal) x0 x1 x2 i) := by
  rw [v43_apply]
  refine IsR.add ?_ (isR_sum _ _ fun j _ => ?_)
  · rw [v41_zero]; exact isR_zero
  · rw [layer1_message]
    exact (isR_v30 x0 x2 hx0 hx2 _).mul ((hD _).mul (hD _))

/-- The second product is real when moreover the first bias and the second weights are. -/
theorem isR_v48 (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal))
    (hx0 : ∀ i, IsR (x0 i)) (hx2 : ∀ i, IsR (x2 i)) (hx3 : ∀ i, IsR (x3 i)) (hx4 : ∀ i, IsR (x4 i))
    (hD : ∀ n, IsR (val_main_v14 (F := Ideal) x1 n)) (i : S50000x128.Idx) :
    IsR (val_main_v48 (F := Ideal) x0 x1 x2 x3 x4 i) := by
  obtain ⟨r, q, rfl⟩ : ∃ (r : Fin 50000) (q : Fin 128), i = ix2 r q := ⟨i 0, i 1, eq_ix2 i⟩
  rw [dot2]
  exact isR_sum_univ _ fun k => (((isR_v43 x0 x1 x2 hx0 hx2 hD _).add (hx3 _)).max isR_zero).mul (hx4 _)

end Cert.RefDots

end
-- ==== Proof.KernelEntries.lean ====
/-
  What each region's output array holds, in the reference's terms.

  The first region's output, entry (r, q), is the reference's first product at (r, q) times the per-node scale at r: the
  region multiplies row r of the features by column q of the first weights and scales by the column entry at r, and
  that column is the reference's own normalisation vector. The second region's output, entry (r, q), is the
  reference's second product at (r, q) times the scale at r, once the aggregated array it reads, scaled by the same
  column, is the reference's layer-1 sum: the region adds the first bias, clips at zero, multiplies by the second
  weights and scales.
-/
import proofs.«151310_j89404039233749_2_alg».proof.Proof.Gen.KernelIdeal.Frame
import proofs.«151310_j89404039233749_2_alg».proof.Proof.KernelHost
import proofs.«151310_j89404039233749_2_alg».proof.Proof.Region0
import proofs.«151310_j89404039233749_2_alg».proof.Proof.Region1
import proofs.«151310_j89404039233749_2_alg».proof.Proof.RefRead
import proofs.«151310_j89404039233749_2_alg».proof.Proof.RefDots
import Idealize.ShloMosaic.Lib.StableHlo.Run
import Idealize.ShloMosaic.Lib.ValueIdx
import Idealize.ShloMosaic.Lib.ValueLayout

set_option maxRecDepth 16384

noncomputable section

open scoped BigOperators

namespace Cert.KernelEntries

open Cert.KernelIdeal Cert.KernelIdeal.Gen Cert.KernelIdeal.HostValue
open Idealize.ShloMosaic Idealize.ShloMosaic.TcCoe Idealize.SL.Sem Idealize.ShloMosaic.StableHlo Idealize.ShloMosaic.ValueIdx
open Cert.ReferenceIdeal.ReadP (val_main_v14 val_main_v30 val_main_v43 val_main_v48)

variable (m : (ℓ : Loc nD τ sig) → Buf (Elt Ideal) ℓ) (ρ : Dev nD → PrngReg) (c : Dev nD)

/-! ## The first region's output -/

/-- THE FIRST REGION'S OUTPUT at (r, q): the reference's first product there, times the per-node scale at r. -/
theorem h1_entry (r : Fin 50000) (q : Fin 256) :
    W4 m ρ c (Proc.devRef .tc main_v16) (ix2 r q)
      = val_main_v30 (F := Ideal) (m ((c : Thread nD τ).loc main_arg0)) (m ((c : Thread nD τ).loc main_arg2)) (ix2 r q) * val_main_v14 (F := Ideal) (m ((c : Thread nD τ).loc main_arg1)) (ix1 r) := by
  have h := (hF0 m ρ c 3).symm.trans (Region0.region0_array (V3 m ρ) c)
  have e0 : V3 m ρ c main_arg0 = (m ((c : Thread nD τ).loc main_arg0)) := W3_arg0 m ρ c
  have e2 : V3 m ρ c main_arg2 = (m ((c : Thread nD τ).loc main_arg2)) := W3_arg2 m ρ c
  have e15 : V3 m ρ c main_v15 (ix2 r (0 : Fin 1)) = val_main_v14 (F := Ideal) (m ((c : Thread nD τ).loc main_arg1)) (ix1 r) := W3_v15 m ρ c r 0
  rw [e0, e2] at h
  refine (congrFun h (ix2 r q)).trans ?_
  rw [Region0.G_ix2, e15, Cert.RefDots.dot1]

/-! ## The bias row the second region reads -/

/-- The last operation of the stretch between the regions reshapes the first bias to a row, whatever the contents. -/
theorem after_hostOps1_v28 (V : Valuation τ sig (Elt Ideal)) :
    StableHlo.after hostOps1 V (Proc.devRef .tc main_v28)
      = fun i => shapeCast S1x256 (V (Proc.devRef .tc main_arg3)) shapeCasts_S256_S1x256 i := by
  after_results
  rfl

/-- The bias row at lane k is the first bias at k. -/
theorem bias_row (u : Fin 1) (k : Fin 256) :
    W5 m ρ c (Proc.devRef .tc main_v28) (ix2 u k) = (m ((c : Thread nD τ).loc main_arg3)) (ix1 k) := by
  show StableHlo.after hostOps1 (W4 m ρ c) (Proc.devRef .tc main_v28) (ix2 u k) = _
  rw [after_hostOps1_v28, W4_arg3]
  exact shapeCast_a_1a_apply _ _ u k

/-! ## The second region's output -/

/-- The array the second region reads its rows from, as the region finds it. -/
def aggIn : S50000x256.Idx → EReal := W5 m ρ c (Proc.devRef .tc main_v27)

theorem aggIn_eq : aggIn m ρ c = W5 m ρ c (Proc.devRef .tc main_v27) := rfl

/-- The region's closed form at (r, q) with each array's entries renamed: the column entry d, the scaled rows S, the
    bias b, the weights' column w. -/
theorem fused_entry (A : S50000x256.Idx → EReal) (D : S50000x1.Idx → EReal) (B : S1x256.Idx → EReal)
    (W : S256x128.Idx → EReal) (r : Fin 50000) (q : Fin 128) (d : EReal) (S b w : Fin 256 → EReal)
    (hD : D (ix2 r (0 : Fin 1)) = d) (hA : ∀ k, A (ix2 r k) * d = S k) (hB : ∀ k, B (ix2 (0 : Fin 1) k) = b k)
    (hW : ∀ k, W (ix2 k q) = w k) :
    (∑ k : Fin 256, max (A (ix2 r k) * D (ix2 r (0 : Fin 1)) + B (ix2 (0 : Fin 1) k)) 0 * W (ix2 k q)) * D (ix2 r (0 : Fin 1))
      = (∑ k : Fin 256, max (S k + b k) 0 * w k) * d := by
  rw [hD]
  refine congrArg (· * d) (Finset.sum_congr rfl fun k _ => ?_)
  rw [hA, hB, hW]

/-- THE SECOND REGION'S OUTPUT at (r, q), when the array the region reads, scaled by the per-node scale, is the
    reference's layer-1 sum: the reference's second product there, times the scale at r. -/
theorem h2_entry
    (hL1 : ∀ (n : Fin 50000) (k : Fin 256),
      aggIn m ρ c (ix2 n k) * val_main_v14 (F := Ideal) (m ((c : Thread nD τ).loc main_arg1)) (ix1 n) = val_main_v43 (F := Ideal) (m ((c : Thread nD τ).loc main_arg0)) (m ((c : Thread nD τ).loc main_arg1)) (m ((c : Thread nD τ).loc main_arg2)) (ix2 n k))
    (r : Fin 50000) (q : Fin 128) :
    W6 m ρ c (Proc.devRef .tc main_v29) (ix2 r q)
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) * val_main_v14 (F := Ideal) (m ((c : Thread nD τ).loc main_arg1)) (ix1 r) := by
  have h := (hF1 m ρ c 4).symm.trans (Region1.region1_array (V5 m ρ) c
    (aggIn m ρ c) (W5 m ρ c (Proc.devRef .tc main_v15)) (W5 m ρ c (Proc.devRef .tc main_v28))
    (W5 m ρ c (Proc.devRef .tc main_arg4)) rfl rfl rfl rfl)
  have eD : W5 m ρ c (Proc.devRef .tc main_v15) (ix2 r (0 : Fin 1)) = val_main_v14 (F := Ideal) (m ((c : Thread nD τ).loc main_arg1)) (ix1 r) := by
    rw [W5_v15]; exact W3_v15 m ρ c r 0
  refine (congrFun h (ix2 r q)).trans ?_
  rw [Cert.RefDots.dot2]
  exact fused_entry (aggIn m ρ c) (W5 m ρ c (Proc.devRef .tc main_v15)) (W5 m ρ c (Proc.devRef .tc main_v28))
    (W5 m ρ c (Proc.devRef .tc main_arg4)) r q (val_main_v14 (F := Ideal) (m ((c : Thread nD τ).loc main_arg1)) (ix1 r))
    (fun k => val_main_v43 (F := Ideal) (m ((c : Thread nD τ).loc main_arg0)) (m ((c : Thread nD τ).loc main_arg1)) (m ((c : Thread nD τ).loc main_arg2)) (ix2 r k)) (fun k => (m ((c : Thread nD τ).loc main_arg3)) (ix1 k)) (fun k => (m ((c : Thread nD τ).loc main_arg4)) (ix2 k q))
    eD (hL1 r) (fun k => bias_row m ρ c 0 k) (fun k => by rw [W5_arg4])

end Cert.KernelEntries

end
-- ==== Proof.RefFacts.lean ====
/-
  Facts about the reference's stages, read at an index.

  The degree of a node is `0 + ∑ 1` over the edges that land on it, a finite sum of real numbers, so it is real; the
  normalisation `where(deg > 0, 1/√deg, 0)` of a real degree is real. A destination index that, read as a signed
  integer, is a row `n` of the table is not negative, so the wrap-around `where(d < 0, d + N, d)` leaves it alone, and
  clamping it into `[0, N − 1]` gives `n` back. The reference recomputes the wrapped source column and the
  destination column before each gather and scatter; the recomputed stages are the same terms.
-/
import proofs.«151310_j89404039233749_2_alg».proof.Proof.RefRead
import proofs.«151310_j89404039233749_2_alg».proof.Proof.RealAlgebra
import proofs.«151310_j89404039233749_2_alg».proof.Proof.LibRowGather

noncomputable section

namespace Cert.RefFacts

open Idealize.ShloMosaic Cert.ReferenceIdeal Cert.ReferenceIdeal.ReadP Cert.RealAlgebra

/-- An accumulating scatter of real updates onto a real operand is real at every entry: the entry plus a finite sum of
    the updates that land on it. -/
theorem isR_scatterAdd {s si su : Shape} {w : Nat} (d : ScatterDims s si su) (x : FVec Ideal s .f32) (idx : IVec si w)
    (upd : FVec Ideal su .f32) (hx : ∀ i, IsR (x i)) (hu : ∀ j, IsR (upd j)) (i : s.Idx) :
    IsR (Host.scatterAdd d x idx upd i) := by
  unfold Host.scatterAdd
  rw [Ideal.hostScatterAdd_def]
  exact (hx i).add (isR_sum _ _ fun j _ => hu j)

/-- The degree of a node — zero plus a one for every edge landing on it — is a real number. -/
theorem deg_real (x1 : (⟨Cert.ReferenceIdeal.S2x800000, .i32⟩ : BufTy).Contents (Elt Ideal))
    (n : Cert.ReferenceIdeal.S50000.Idx) : IsR (val_main_v10 (F := Ideal) x1 n) := by
  have h8 : ∀ i, IsR (val_main_v8 (F := Ideal) i) := fun i => by
    rw [val_main_v8_apply, val_main_cst_0_apply]
    exact isR_ofBits_zero
  have h7 : ∀ j, IsR (val_main_v7 (F := Ideal) j) := fun j => by
    rw [val_main_v7_apply, val_main_cst_apply]
    exact isR_ofBits_one
  exact isR_scatterAdd _ _ _ _ h8 h7 n

/-- The normalisation vector `where(deg > 0, 1/√deg, 0)` is real at every node. -/
theorem dinv_real (x1 : (⟨Cert.ReferenceIdeal.S2x800000, .i32⟩ : BufTy).Contents (Elt Ideal))
    (n : Cert.ReferenceIdeal.S50000.Idx) : IsR (val_main_v14 (F := Ideal) x1 n) := by
  rw [val_main_v14_apply, val_main_v12_apply, val_main_v13_apply, val_main_call0_v1_apply, val_main_call0_v0_apply,
    val_main_cst_2_apply, val_main_v11_apply, val_main_cst_1_apply]
  exact isR_where_rsqrt _ (deg_real x1 n)

/-- A destination index that is the row `n`, read signed, is its own wrapped and clamped row. -/
theorem dstn_row (x1 : (⟨Cert.ReferenceIdeal.S2x800000, .i32⟩ : BufTy).Contents (Elt Ideal))
    (e : Cert.ReferenceIdeal.S850000.Idx) (n : Fin 50000)
    (h : (val_main_v6 (F := Ideal) x1 e).toInt = (n.val : Int)) :
    Cert.Lib.Rows.clampRow 50000 (by decide) (val_main_v26 (F := Ideal) x1 e) = n := by
  have hlt : (val_main_v6 (F := Ideal) x1 e).slt 0#32 = false := by
    rw [BitVec.slt, h]
    simp
  have hc : val_main_v23 (F := Ideal) x1 e = 0#1 := by
    rw [val_main_v23_apply, val_main_v22_apply, val_main_c_4_apply]
    show BitVec.ofBool ((val_main_v6 (F := Ideal) x1 e).slt 0#32) = 0#1
    rw [hlt]
    rfl
  rw [val_main_v26_apply, hc]
  unfold Scalar.select
  rw [if_neg (by decide)]
  unfold Cert.Lib.Rows.clampRow
  refine Fin.ext ?_
  show min (val_main_v6 (F := Ideal) x1 e).toInt.toNat (50000 - 1) = n.val
  rw [h]
  have := n.isLt
  omega

/-! The reference's repeated stages: the wrapped source column, its index column, and the destination index column
    are recomputed before each use; each recomputation is the same term. -/

theorem srcn_eq_1 (x1 : (⟨Cert.ReferenceIdeal.S2x800000, .i32⟩ : BufTy).Contents (Elt Ideal)) :
    val_main_v35 (F := Ideal) x1 = val_main_v19 (F := Ideal) x1 := rfl

theorem srcn_eq_2 (x1 : (⟨Cert.ReferenceIdeal.S2x800000, .i32⟩ : BufTy).Contents (Elt Ideal)) :
    val_main_v53 (F := Ideal) x1 = val_main_v19 (F := Ideal) x1 := rfl

theorem srcn_col_eq_1 (x1 : (⟨Cert.ReferenceIdeal.S2x800000, .i32⟩ : BufTy).Contents (Elt Ideal)) :
    val_main_v36 (F := Ideal) x1 = val_main_v20 (F := Ideal) x1 := rfl

theorem srcn_col_eq_2 (x1 : (⟨Cert.ReferenceIdeal.S2x800000, .i32⟩ : BufTy).Contents (Elt Ideal)) :
    val_main_v54 (F := Ideal) x1 = val_main_v20 (F := Ideal) x1 := rfl

theorem dst_col_eq_1 (x1 : (⟨Cert.ReferenceIdeal.S2x800000, .i32⟩ : BufTy).Contents (Elt Ideal)) :
    val_main_v42 (F := Ideal) x1 = val_main_v9 (F := Ideal) x1 := rfl

theorem dst_col_eq_2 (x1 : (⟨Cert.ReferenceIdeal.S2x800000, .i32⟩ : BufTy).Contents (Elt Ideal)) :
    val_main_v60 (F := Ideal) x1 = val_main_v9 (F := Ideal) x1 := rfl

end Cert.RefFacts

end
-- ==== Proof.LayerBridge.lean ====
/-
  One graph-convolution aggregation, scaled outside or inside the sum.

  Rows `e` of an update array are added onto the rows `idx[e, 0]` of a zero array (rows outside the array are dropped). With
  `P` a real-valued node array, `D` a real-valued node vector, `sRow e` the source row of edge `e` and `dRow e` a row that
  equals the destination row whenever that one is inside the array: scattering `P[sRow e] · D[sRow e]` and scaling node `n`'s sum
  by `D[n]` afterwards gives what scattering `P[sRow e] · (D[sRow e] · D[dRow e])` gives — every update landing on node `n` has
  `dRow e = n`, and a real factor goes into a finite sum of reals.
-/
import proofs.«151310_j89404039233749_2_alg».proof.Proof.RealAlgebra
import proofs.«151310_j89404039233749_2_alg».proof.Proof.LibRowGather
import Idealize.ShloMosaic.PureOps.Ideal

noncomputable section

namespace Cert.LayerBridge

open Idealize.ShloMosaic Idealize.ShloMosaic.ValueIdx Cert.RealAlgebra Cert.Lib.Rows

theorem scaled_aggregate {N R C : ℕ} (wfS : ScatterDims.WF ⟨2, ![N, C]⟩ ⟨2, ![R, 1]⟩ ⟨2, ![R, C]⟩ [1] [0] [0] 1)
    (idx : IVec ⟨2, ![R, 1]⟩ 32) (zero : (⟨2, ![N, C]⟩ : Shape).Idx → EReal)
    (updK updR : (⟨2, ![R, C]⟩ : Shape).Idx → EReal)
    (P : (⟨2, ![N, C]⟩ : Shape).Idx → EReal) (D : Fin N → EReal) (sRow dRow : Fin R → Fin N)
    (hZ : ∀ i, zero i = 0)
    (hK : ∀ j, updK j = P (ix2 (sRow (j 0)) (j 1)) * D (sRow (j 0)))
    (hR : ∀ j, updR j = P (ix2 (sRow (j 0)) (j 1)) * (D (sRow (j 0)) * D (dRow (j 0))))
    (hd : ∀ (e : Fin R) (n : Fin N), (idx (ix2 e 0)).toInt = (n.val : Int) → dRow e = n)
    (hP : ∀ i, IsR (P i)) (hD : ∀ n, IsR (D n)) (i : (⟨2, ![N, C]⟩ : Shape).Idx) :
    Ideal.hostScatterAdd (rowScatterDims N R C wfS) zero idx updK i * D (i 0)
      = Ideal.hostScatterAdd (rowScatterDims N R C wfS) zero idx updR i := by
  unfold Ideal.hostScatterAdd
  rw [hZ i]
  have key := scale_into_sum (Finset.univ.filter fun j => (rowScatterDims N R C wfS).resultIdx? j idx = some i)
    (fun j => P (ix2 (sRow (j 0)) (j 1))) (fun j => D (sRow (j 0))) (fun j => D (dRow (j 0))) (D (i 0))
    (fun j _ => hP _) (fun j _ => hD _) (hD _) (fun j hj => by
      have hj' := (Finset.mem_filter.mp hj).2
      show D (dRow (j 0)) = D (i 0)
      rw [hd (j 0) (i 0) (rowScatter_row_of_hit wfS idx j i hj')])
  simp only [hK, hR]
  exact key

end Cert.LayerBridge

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteArgs.lean ====
/-
  The precondition gives real entries. The precondition is the one bit
  all(|x| < inf) & all(|W1| < inf) & all(|b1| < inf) & all(|W2| < inf) & all(|b2| < inf), read on the extended reals.
  That bit being 1 makes each of the five conjuncts 1; a conjunct is an `and`-reduction over all axes, so every
  elementwise test |a[i]| < +inf is 1; and an extended real whose absolute value is below +inf is a real number.
-/
import proofs.«151310_j89404039233749_2_alg».proof.Proof.LibFiniteEntry
import proofs.«151310_j89404039233749_2_alg».proof.Pre_finite_inputs
import Idealize.ShloMosaic.Lib.ValueIdx

noncomputable section

namespace Cert.FiniteArgs

open Idealize.ShloMosaic
open Cert.Pre_finite_inputs
open Cert.Lib.FiniteEntry

/-- If the finiteness bit of the six arguments is 1, every entry of the five float arguments is a real number. -/
theorem args_real [Cert.Pre_finite_inputs.Facts]
    (x0 : FVec Ideal S50000x128 .f32) (x1 : IVec S2x800000 32) (x2 : FVec Ideal S128x256 .f32)
    (x3 : FVec Ideal S256 .f32) (x4 : FVec Ideal S256x128 .f32) (x5 : FVec Ideal S128 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) ∧
      (∀ i, ∃ r : ℝ, x4 i = (r : EReal)) ∧ (∀ i, ∃ r : ℝ, x5 i = (r : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => entry_real _ x0 i (Host.reduce_andi_all _ _ _ _ _ e0 i),
    fun i => entry_real _ x2 i (Host.reduce_andi_all _ _ _ _ _ e2 i),
    fun i => entry_real _ x3 i (Host.reduce_andi_all _ _ _ _ _ e3 i),
    fun i => entry_real _ x4 i (Host.reduce_andi_all _ _ _ _ _ e4 i),
    fun i => entry_real _ x5 i (Host.reduce_andi_all _ _ _ _ _ e5 i)⟩

end Cert.FiniteArgs

end
-- ==== Proof.Bridge.lean ====
/-
  The idealized kernel's result is the reference's, entry by entry.

  Write `D` for the normalisation vector where(deg > 0, deg^(-1/2), 0), `s e` for the (normalised, clamped) source row of edge
  `e`, and sum over the edge entries the destination column sends to a node. Layer by layer the kernel holds
  `(∑ P[s e] · D[s e]) · D[n]` where the reference holds `∑ P[s e] · (D[s e] · D[n])`, with `P` the layer's matrix product; on
  finite inputs `P` and `D` are real-valued, the factor `D[n]` goes into the sum, and the second layer's input — the ReLU of
  the first layer's output plus the bias — is then the same real-valued array on both sides.
-/
import proofs.«151310_j89404039233749_2_alg».proof.Proof.KernelHost
import proofs.«151310_j89404039233749_2_alg».proof.Proof.KernelLayer
import proofs.«151310_j89404039233749_2_alg».proof.Proof.KernelEntries
import proofs.«151310_j89404039233749_2_alg».proof.Proof.RefLayer
import proofs.«151310_j89404039233749_2_alg».proof.Proof.RefDots
import proofs.«151310_j89404039233749_2_alg».proof.Proof.RefFacts
import proofs.«151310_j89404039233749_2_alg».proof.Proof.LayerBridge
import proofs.«151310_j89404039233749_2_alg».proof.Proof.FiniteArgs
import proofs.«151310_j89404039233749_2_alg».proof.Proof.RealAlgebra

set_option maxRecDepth 16384

noncomputable section

namespace Cert.Bridge

open Cert.KernelIdeal Cert.KernelIdeal.Gen Cert.KernelIdeal.HostValue Cert.KernelIdeal.Layer
open Idealize.ShloMosaic Idealize.ShloMosaic.TcCoe Idealize.SL.Sem Idealize.ShloMosaic.StableHlo Idealize.ShloMosaic.ValueIdx
open Cert.RealAlgebra Cert.Lib.Rows Cert.LayerBridge

variable (m : (ℓ : Loc nD τ sig) → Buf (Elt Ideal) ℓ) (ρ : Dev nD → PrngReg) (c : Dev nD)

/-- The kernel's source row of an edge is the reference's: the same normalisation of the same column. -/
theorem srcRow_eq (e : Fin 850000) :
    srcRow (Cert.ReferenceIdeal.ReadP.val_main_v3 (F := Ideal) (m ((c : Thread nD τ).loc main_arg1))) e = Cert.RefLayer.sRow (m ((c : Thread nD τ).loc main_arg1)) e := by
  unfold srcRow Cert.RefLayer.sRow Cert.ReferenceIdeal.ReadP.val_main_v19 Cert.ReferenceIdeal.ReadP.val_main_v16 Cert.ReferenceIdeal.ReadP.val_main_v18 Cert.ReferenceIdeal.ReadP.val_main_v15 Cert.ReferenceIdeal.ReadP.val_main_v17 Cert.ReferenceIdeal.ReadP.val_main_c Cert.ReferenceIdeal.ReadP.val_main_c_3
  rfl
/-- An edge whose destination entry, read signed, is the node `n` has `n` for its (normalised, clamped) destination row. -/
theorem dst_of_hit (e : Fin 850000) (n : Fin 50000)
    (h : (((broadcastInDim S850000x1 ![0] bcast_S850000_S850000x1_0 (Cert.ReferenceIdeal.ReadP.val_main_v6 (F := Ideal) (m ((c : Thread nD τ).loc main_arg1)))) : IVec S850000x1 32) (ix2 e 0)).toInt = (n.val : Int)) : Cert.RefLayer.dRow (m ((c : Thread nD τ).loc main_arg1)) e = n := by
  rw [edge_col_apply] at h
  exact Cert.RefFacts.dstn_row (m ((c : Thread nD τ).loc main_arg1)) (ix1 e) n h

/-- The kernel's and the reference's source rows are one function of the edge. -/
theorem srcRow_fun : srcRow (Cert.ReferenceIdeal.ReadP.val_main_v3 (F := Ideal) (m ((c : Thread nD τ).loc main_arg1))) = Cert.RefLayer.sRow (m ((c : Thread nD τ).loc main_arg1)) := funext (srcRow_eq m c)

/-- Layer 1: the kernel's aggregate of the pre-scaled product, scaled again at the node, is the reference's aggregate of the
    normalised messages. -/
theorem layer1 (hx0 : ∀ i, IsR ((m ((c : Thread nD τ).loc main_arg0)) i)) (hx2 : ∀ i, IsR ((m ((c : Thread nD τ).loc main_arg2)) i)) (n : Fin 50000) (k : Fin 256) :
    Cert.KernelEntries.aggIn m ρ c (ix2 n k) * Cert.ReferenceIdeal.ReadP.val_main_v14 (F := Ideal) (m ((c : Thread nD τ).loc main_arg1)) (ix1 n)
      = Cert.ReferenceIdeal.ReadP.val_main_v43 (F := Ideal) (m ((c : Thread nD τ).loc main_arg0)) (m ((c : Thread nD τ).loc main_arg1)) (m ((c : Thread nD τ).loc main_arg2)) (ix2 n k) := by
  have eK : Cert.KernelEntries.aggIn m ρ c
      = Ideal.hostScatterAdd (rowScatterDims 50000 850000 256 scatter_S50000x256_S850000x1_S850000x256_1_0_0_1_wf) (fun _ => 0) (broadcastInDim S850000x1 ![0] bcast_S850000_S850000x1_0 (Cert.ReferenceIdeal.ReadP.val_main_v6 (F := Ideal) (m ((c : Thread nD τ).loc main_arg1))))
          (fun j => W4 m ρ c (Proc.devRef .tc main_v16) (ix2 (Cert.RefLayer.sRow (m ((c : Thread nD τ).loc main_arg1)) (j 0)) (j 1))) := by
    show StableHlo.after hostOps1 (W4 m ρ c) _ = _
    rw [agg_after, W4_v3, W4_v6]
    unfold rowAgg256
    rw [srcRow_fun]
  have eR : Cert.ReferenceIdeal.ReadP.val_main_v43 (F := Ideal) (m ((c : Thread nD τ).loc main_arg0)) (m ((c : Thread nD τ).loc main_arg1)) (m ((c : Thread nD τ).loc main_arg2))
      = Ideal.hostScatterAdd (rowScatterDims 50000 850000 256 scatter_S50000x256_S850000x1_S850000x256_1_0_0_1_wf) (fun _ => 0) (broadcastInDim S850000x1 ![0] bcast_S850000_S850000x1_0 (Cert.ReferenceIdeal.ReadP.val_main_v6 (F := Ideal) (m ((c : Thread nD τ).loc main_arg1))))
          (Cert.ReferenceIdeal.ReadP.val_main_v40 (F := Ideal) (m ((c : Thread nD τ).loc main_arg0)) (m ((c : Thread nD τ).loc main_arg1)) (m ((c : Thread nD τ).loc main_arg2))) := by
    have hz : (Cert.ReferenceIdeal.ReadP.val_main_v41 (F := Ideal)) = fun _ => (0 : EReal) := funext Cert.RefLayer.v41_zero
    rw [Cert.RefLayer.aggregate1_eq, hz]
    rfl
  rw [eK, eR]
  have key := scaled_aggregate scatter_S50000x256_S850000x1_S850000x256_1_0_0_1_wf (broadcastInDim S850000x1 ![0] bcast_S850000_S850000x1_0 (Cert.ReferenceIdeal.ReadP.val_main_v6 (F := Ideal) (m ((c : Thread nD τ).loc main_arg1)))) (fun _ => 0)
    (fun j => W4 m ρ c (Proc.devRef .tc main_v16) (ix2 (Cert.RefLayer.sRow (m ((c : Thread nD τ).loc main_arg1)) (j 0)) (j 1)))
    (Cert.ReferenceIdeal.ReadP.val_main_v40 (F := Ideal) (m ((c : Thread nD τ).loc main_arg0)) (m ((c : Thread nD τ).loc main_arg1)) (m ((c : Thread nD τ).loc main_arg2)))
    (Cert.ReferenceIdeal.ReadP.val_main_v30 (F := Ideal) (m ((c : Thread nD τ).loc main_arg0)) (m ((c : Thread nD τ).loc main_arg2)))
    (fun r => Cert.ReferenceIdeal.ReadP.val_main_v14 (F := Ideal) (m ((c : Thread nD τ).loc main_arg1)) (ix1 r)) (Cert.RefLayer.sRow (m ((c : Thread nD τ).loc main_arg1))) (Cert.RefLayer.dRow (m ((c : Thread nD τ).loc main_arg1)))
    (fun _ => rfl) ?hK ?hR ?hd ?hP ?hD (ix2 n k)
  case hK => intro j; exact Cert.KernelEntries.h1_entry m ρ c _ _
  case hR => intro j; exact Cert.RefLayer.layer1_message _ _ _ j
  case hd => exact dst_of_hit m c
  case hP => exact Cert.RefDots.isR_v30 _ _ hx0 hx2
  case hD => intro r; exact Cert.RefFacts.dinv_real _ _
  exact key

/-- Layer 2: the same with the second product, whose left operand — the ReLU of the first layer's output plus the bias — is
    the same array on both sides by layer 1. -/
theorem layer2 (hx0 : ∀ i, IsR ((m ((c : Thread nD τ).loc main_arg0)) i)) (hx2 : ∀ i, IsR ((m ((c : Thread nD τ).loc main_arg2)) i)) (hx3 : ∀ i, IsR ((m ((c : Thread nD τ).loc main_arg3)) i)) (hx4 : ∀ i, IsR ((m ((c : Thread nD τ).loc main_arg4)) i))
    (n : Fin 50000) (q : Fin 128) :
    rowAgg128 (W6 m ρ c (Proc.devRef .tc main_v29)) (Cert.ReferenceIdeal.ReadP.val_main_v3 (F := Ideal) (m ((c : Thread nD τ).loc main_arg1))) (Cert.ReferenceIdeal.ReadP.val_main_v6 (F := Ideal) (m ((c : Thread nD τ).loc main_arg1))) (ix2 n q) * Cert.ReferenceIdeal.ReadP.val_main_v14 (F := Ideal) (m ((c : Thread nD τ).loc main_arg1)) (ix1 n)
      = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 n q) := by
  have eK : rowAgg128 (W6 m ρ c (Proc.devRef .tc main_v29)) (Cert.ReferenceIdeal.ReadP.val_main_v3 (F := Ideal) (m ((c : Thread nD τ).loc main_arg1))) (Cert.ReferenceIdeal.ReadP.val_main_v6 (F := Ideal) (m ((c : Thread nD τ).loc main_arg1)))
      = Ideal.hostScatterAdd (rowScatterDims 50000 850000 128 scatter_S50000x128_S850000x1_S850000x128_1_0_0_1_wf) (fun _ => 0) (broadcastInDim S850000x1 ![0] bcast_S850000_S850000x1_0 (Cert.ReferenceIdeal.ReadP.val_main_v6 (F := Ideal) (m ((c : Thread nD τ).loc main_arg1))))
          (fun j => W6 m ρ c (Proc.devRef .tc main_v29) (ix2 (Cert.RefLayer.sRow (m ((c : Thread nD τ).loc main_arg1)) (j 0)) (j 1))) := by
    unfold rowAgg128
    rw [srcRow_fun]
  have eR : Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      = Ideal.hostScatterAdd (rowScatterDims 50000 850000 128 scatter_S50000x128_S850000x1_S850000x128_1_0_0_1_wf) (fun _ => 0) (broadcastInDim S850000x1 ![0] bcast_S850000_S850000x1_0 (Cert.ReferenceIdeal.ReadP.val_main_v6 (F := Ideal) (m ((c : Thread nD τ).loc main_arg1))))
          (Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
    have hz : (Cert.ReferenceIdeal.ReadP.val_main_v59 (F := Ideal)) = fun _ => (0 : EReal) := funext Cert.RefLayer.v59_zero
    rw [Cert.RefLayer.aggregate2_eq, hz]
    rfl
  rw [eK, eR]
  have key := scaled_aggregate scatter_S50000x128_S850000x1_S850000x128_1_0_0_1_wf (broadcastInDim S850000x1 ![0] bcast_S850000_S850000x1_0 (Cert.ReferenceIdeal.ReadP.val_main_v6 (F := Ideal) (m ((c : Thread nD τ).loc main_arg1)))) (fun _ => 0)
    (fun j => W6 m ρ c (Proc.devRef .tc main_v29) (ix2 (Cert.RefLayer.sRow (m ((c : Thread nD τ).loc main_arg1)) (j 0)) (j 1)))
    (Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    (fun r => Cert.ReferenceIdeal.ReadP.val_main_v14 (F := Ideal) (m ((c : Thread nD τ).loc main_arg1)) (ix1 r)) (Cert.RefLayer.sRow (m ((c : Thread nD τ).loc main_arg1))) (Cert.RefLayer.dRow (m ((c : Thread nD τ).loc main_arg1)))
    (fun _ => rfl) ?hK ?hR ?hd ?hP ?hD (ix2 n q)
  case hK => intro j; exact Cert.KernelEntries.h2_entry m ρ c (layer1 m ρ c hx0 hx2) _ _
  case hR => intro j; exact Cert.RefLayer.layer2_message _ _ _ _ _ j
  case hd => exact dst_of_hit m c
  case hP => exact Cert.RefDots.isR_v48 _ _ _ _ _ hx0 hx2 hx3 hx4 (fun r => Cert.RefFacts.dinv_real _ _)
  case hD => intro r; exact Cert.RefFacts.dinv_real _ _
  exact key

/-- The kernel's result array is the reference's, under the finiteness precondition. -/
theorem result_eq [Cert.Pre_finite_inputs.Facts]
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    W7 m ρ c (Proc.devRef .tc main_v45)
      = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨hx0, hx2, hx3, hx4, hx5⟩ := Cert.FiniteArgs.args_real _ _ _ _ _ _ hpre
  show StableHlo.after hostOps2 (W6 m ρ c) (Proc.devRef .tc main_v45) = _
  rw [layer_after, W6_v3, W6_v6, W6_arg5]
  funext i
  obtain ⟨n, q, rfl⟩ : ∃ (n : Fin 50000) (q : Fin 128), i = ix2 n q := ⟨i 0, i 1, eq_ix2 i⟩
  rw [Cert.RefDots.last_line]
  have hcol : W6 m ρ c (Proc.devRef .tc main_v15) (ix2 n (0 : Fin 1)) = Cert.ReferenceIdeal.ReadP.val_main_v14 (F := Ideal) (m ((c : Thread nD τ).loc main_arg1)) (ix1 n) := by
    rw [W6_v15]; exact W3_v15 m ρ c n 0
  show rowAgg128 (W6 m ρ c (Proc.devRef .tc main_v29)) (Cert.ReferenceIdeal.ReadP.val_main_v3 (F := Ideal) (m ((c : Thread nD τ).loc main_arg1))) (Cert.ReferenceIdeal.ReadP.val_main_v6 (F := Ideal) (m ((c : Thread nD τ).loc main_arg1))) (ix2 n q)
      * W6 m ρ c (Proc.devRef .tc main_v15) (ix2 n (0 : Fin 1)) + (m ((c : Thread nD τ).loc main_arg5)) (ix1 q) = _
  rw [hcol, layer2 m ρ c hx0 hx2 hx3 hx4 n q]

end Cert.Bridge

end
-- ==== Proof.lean ====
/-
  The proof of `Cert.Claim`: the three frames, the (empty) idealization ledger, and the value claim of a two-layer graph
  convolution.

  Two graph-convolution layers: the kernel scales each node's features by deg^(-1/2) before the edges gather them and again after
  the edges have added them up; the reference multiplies every edge message by deg^(-1/2)[src] · deg^(-1/2)[dst]. On finite inputs
  everything in sight is a real number, so the node-wise factor goes into the finite sum over the edges that land on the node, and
  the two programs' results are equal entry by entry on the extended reals.
-/
import proofs.«151310_j89404039233749_2_alg».proof.Defs
import proofs.«151310_j89404039233749_2_alg».proof.Proof.Gen.Kernel
import proofs.«151310_j89404039233749_2_alg».proof.Proof.Gen.Kernel.Frame
import proofs.«151310_j89404039233749_2_alg».proof.Proof.Gen.KernelIdeal
import proofs.«151310_j89404039233749_2_alg».proof.Proof.Gen.KernelIdeal.Frame
import proofs.«151310_j89404039233749_2_alg».proof.Proof.Gen.ReferenceIdeal
import proofs.«151310_j89404039233749_2_alg».proof.Proof.Gen.Pre_finite_inputs
import proofs.«151310_j89404039233749_2_alg».proof.Proof.RefRun
import proofs.«151310_j89404039233749_2_alg».proof.Proof.RefRead
import proofs.«151310_j89404039233749_2_alg».proof.Proof.KernelRun
import proofs.«151310_j89404039233749_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' hpre hagree
  refine ⟨fun c => Cert.KernelIdeal.Gen.W7 m ρ c (Proc.devRef .tc Cert.KernelIdeal.main_v45), Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
